-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x2048 : Shape := ⟨2, ![4096, 2048]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S8192x4096 .f32) (main_arg1 : FVec F S4096x2048 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S8192x4096 : Shape := ⟨2, ![8192, 4096]⟩
abbrev S4096x2048 : Shape := ⟨2, ![4096, 2048]⟩
abbrev S1024x1024 : Shape := ⟨2, ![1024, 1024]⟩
abbrev S8192x2048 : Shape := ⟨2, ![8192, 2048]⟩
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 4
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S4096x2048, .bf16⟩
  | .hbm, ⟨3, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S2048x256, .f32⟩
  | .local _ .vmem, ⟨5, _⟩ => ⟨S2048x256, .f32⟩
  | .local _ .vmem, ⟨6, _⟩ => ⟨S256x1024, .bf16⟩
  | .local _ .vmem, ⟨7, _⟩ => ⟨S256x1024, .bf16⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨3, ![4, 2, 16], ![false, false, false]⟩

def k1_cond2 (i : grid1.Coords) : BitVec 1 :=
  let arg2 : BitVec 32 := BitVec.ofNat 32 (i 2).val
  let c15_i32 : BitVec 32 := 15#32
  let v15 : BitVec 1 := Scalar.cmpi .eq arg2 c15_i32
  let v16 : BitVec 32 := Scalar.extui v15
  let c0_i32_9 : BitVec 32 := 0#32
  let v17 : BitVec 1 := Scalar.cmpi .ne v16 c0_i32_9
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  natLt_1_32 : 1 < 32
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x2048.size a
  hwx0_0 : ∀ i : grid0.Coords, EltTy.bits .f32 = 32 ∨ (Rect.block (s := S4096x2048) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x2048.size a
  hwx0_1 : ∀ i : grid0.Coords, EltTy.bits .bf16 = 32 ∨ (Rect.block (s := S4096x2048) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x4096.size a
  hwx1_0 : ∀ i : grid1.Coords, EltTy.bits .f32 = 32 ∨ (Rect.block (s := S8192x4096) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S4096x2048.size a
  hwx1_1 : ∀ i : grid1.Coords, EltTy.bits .bf16 = 32 ∨ (Rect.block (s := S4096x2048) S256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S8192x2048.size a
  hwx1_2 : ∀ i : grid1.Coords, EltTy.bits .f32 = 32 ∨ (Rect.block (s := S8192x2048) S2048x1024.size (cc1_transform_2 i) (hinb1_2 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x2048 : Shape := ⟨2, ![4096, 2048]⟩
abbrev S_ : Shape := ⟨0, ![]⟩
abbrev S8192x2048 : Shape := ⟨2, ![8192, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .i1⟩
  | .hbm, ⟨5, _⟩ => ⟨S4096x2048, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .i1⟩
  | .hbm, ⟨13, _⟩ => ⟨S_, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S_S8192x4096 : S_.BroadcastsInDim S8192x4096 (![] : Fin 0 → Fin S8192x4096.rank)
  bcast_S_S8192x2048 : S_.BroadcastsInDim S8192x2048 (![] : Fin 0 → Fin S8192x2048.rank)
  dot_S8192x4096_S4096x2048_S8192x2048_1_0_0_1_n_n_wf : DotDims.WF S8192x4096 S4096x2048 S8192x2048 [1] [0] [0] [1] [] []

variable [Facts₀]

def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf

class Facts : Prop extends Facts₀ where

variable [Facts]
-- ==== Proof.BinarizeBits.lean ====
/-
  The thresholding region (the first of the program's two kernel launches), at any float instance.
  Its grid is 4 × 2; at a point the body loads the 1024 × 1024 block of the weight matrix the point's
  window stages, compares it entrywise with one half, and stores the 0/1 answer into the block of the
  narrowed matrix at the same position. The body keeps nothing between points and touches nothing but
  its two staging buffers, so the region's invariant is "every other scoped buffer at some contents,
  the generator register at some state", the same at every point. Everything is stated at a parameter
  `V`: what the core's buffers hold when the region is entered.
-/
import proofs.«100908_j52493090291974_2_alg».proof.Proof.Gen.Kernel.Launch
import proofs.«100908_j52493090291974_2_alg».proof.Proof.Gen.Kernel.Skeleton
import proofs.«100908_j52493090291974_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block of the weight matrix whenever the body is called:
    the block is fetched at every point and the body only reads it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes through: the whole 1024 × 1024 block. -/
abbrev whole0 : Rect S1024x1024 := Rect.unit (s := S1024x1024) ![0, 0] S1024x1024.size inb_S1024x1024_S1024x1024_0_0

/-- What the body leaves in the output window's staging buffer, from the input block `x0`: the thresholded block,
    stored through the whole-block rectangle. -/
def out0_1 (x0 : Vec F S1024x1024 .f32) : Vec F S1024x1024 .bf16 :=
  View.canon [⟨whole0, k0_pay1 (View.ld x0 whole0)⟩]

/-- The single store covers the block. -/
theorem cover0_1 (p0 : Vec F S1024x1024 .bf16) (y : S1024x1024.Idx) :
    ∃ pc ∈ ([⟨whole0, p0⟩] : List (View.Piece (Elt F) S1024x1024 .bf16)), y ∈ pc.1.set :=
  View.cover_of_tiled [⟨whole0, p0⟩] S1024x1024.size (by rfl) y

set_option maxHeartbeats 1000000 in
/-- The body's triple on whole staging buffers: the input's at `x0`, the output's at anything; it ends with the input's
    unchanged and the output's at `out0_1 x0`. -/
theorem sound_kernel0 (c : Dev nD) (E : Set ℕ) (i : grid0.Coords) (arg2 : Memref sig .tc .vmem S1024x1024 .f32) (harg2 : arg2.IsWhole) (arg3 : Memref sig .tc .vmem S1024x1024 .bf16) (harg3 : arg3.IsWhole)
    (x0 : Vec F S1024x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__binarize_kernel i arg2 harg2 arg3 harg3) K := by
  simp only [cc0__binarize_kernel_eq_skeleton]; unfold cc0__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The region's proof data on core `c`: its arrays as the region finds them; after the body at point `t` the input's
    buffer still at its block and the output's at the thresholded block; the invariant constant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds the point's block, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The region's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.ConjBits.lean ====
/-
  The accumulating region (the second of the program's two kernel launches), at any float instance.
  Its grid is 4 × 2 × 16, the last axis the contraction's. At a point the body finds the 2048 × 256 block of the
  feature matrix and the 256 × 1024 block of the marked weights its windows stage, and a 2048 × 1024 accumulator of
  its own that it keeps between points: at the first point of each run of sixteen it resets the accumulator to zero,
  at every point it adds the product of (1 − the feature block) with the weight block, and at the last point of the
  run it stores the verdict on the accumulator (0 where positive, 1 elsewhere) into the output window, which is
  written back only there. Everything is stated at a parameter `V`: what the core's buffers hold when the region is
  entered.
-/
import proofs.«100908_j52493090291974_2_alg».proof.Proof.Gen.Kernel.Launch
import proofs.«100908_j52493090291974_2_alg».proof.Proof.Gen.Kernel.Skeleton
import proofs.«100908_j52493090291974_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at point `n`: at the first point of a run of sixteen the point's product added to
    zero, elsewhere added to what the point before left. -/
def acc1 (c : Dev nD) : (n : ℕ) → n < cfg1.N → Vec F S2048x1024 .f32
  | 0, hn => k1_pay2 (iblk1 V c 0 ⟨0, hn⟩) (k1_pay1 (F := F)) (iblk1 V c 1 ⟨0, hn⟩)
  | n + 1, hn =>
    if (n + 1) % 16 = 0 then
      k1_pay2 (iblk1 V c 0 ⟨n + 1, hn⟩) (k1_pay1 (F := F)) (iblk1 V c 1 ⟨n + 1, hn⟩)
    else
      k1_pay2 (iblk1 V c 0 ⟨n + 1, hn⟩) (acc1 c n (Nat.lt_of_succ_lt hn)) (iblk1 V c 1 ⟨n + 1, hn⟩)

/-- What the output window's staging buffer holds after the body at point `t` (read only where the run of sixteen ends:
    elsewhere the window is idle): the verdict on the accumulator. -/
def out1_2 (c : Dev nD) (t : Fin cfg1.N) : Vec F S2048x1024 .f32 := k1_pay3 (acc1 V c t.val t.isLt)

/-- The accumulator as a whole scoped buffer of the kernel's own. -/
abbrev scM1 : Memref sig .tc .vmem S2048x1024 .f32 := Memref.whole cc1_scratch0

/-- The region's invariant before position `n`: before the first point every scoped buffer that is no staging buffer of
    this region at some contents and the generator register at some state; afterwards the same with the accumulator at
    what the point before left in it. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0] ∗ (∃ r, prngReg c r))

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 V c t := by dsimp only [dat1]

/-! ## The body's two conditions over the grid -/

/-- The body's first condition: the contraction coordinate is zero. -/
abbrev cond1_0 (i : grid1.Coords) : Prop :=
  (Scalar.cmpi .ne (Scalar.extui (Scalar.cmpi .eq (BitVec.ofNat 32 (i 2).val) 0#32)) 0#32) = 1#1
/-- It holds exactly at the first point of each run of sixteen. -/
theorem hcond1_0 : ∀ t : Fin cfg1.N, cond1_0 (grid1.coords t) ↔ t.val % 16 = 0 :=
  (by decide +kernel : ∀ t : Fin grid1.N, cond1_0 (grid1.coords t) ↔ t.val % 16 = 0)

/-- The body's second condition: the contraction coordinate is fifteen. -/
abbrev cond1_1 (i : grid1.Coords) : Prop := k1_cond2 i = 1#1
/-- It holds exactly at the last point of each run of sixteen. -/
theorem hcond1_1 : ∀ t : Fin cfg1.N, cond1_1 (grid1.coords t) ↔ t.val % 16 = 15 :=
  (by decide +kernel : ∀ t : Fin grid1.N, cond1_1 (grid1.coords t) ↔ t.val % 16 = 15)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle, and not written back, off the last point of a run; live at it. -/
theorem idleAt1_2 : ∀ t : Fin cfg1.N, ¬t.val % 16 = 15 → cfg1.idle 2 (grid1.coords t) = true := by decide +kernel
theorem noFlush1_2 : ∀ t : Fin cfg1.N, ¬t.val % 16 = 15 → (cfg1.win 2).flush t = false := by decide +kernel
theorem liveAt1_2 : ∀ t : Fin cfg1.N, t.val % 16 = 15 → cfg1.idle 2 (grid1.coords t) = false := by decide +kernel

/-! ## Loads and stores through a whole block -/

/-- The zero offsets of the body's rectangles, as a constant function. -/
theorem off0 : (![0, 0] : Fin 2 → Nat) = fun _ => 0 := by funext a; fin_cases a <;> rfl

section WholeBlock
variable {S : Shape} {e : EltTy}

/-- A load of a whole buffer through the rectangle of the whole block reads what the buffer holds. -/
theorem load_whole (m : Memref sig .tc .vmem S e) (h : m.IsWhole) {off : Fin S.rank → Nat} (hz : off = fun _ => 0)
    (inb : ∀ a, off a + S.size a ≤ S.size a) (X : S.Idx → Elt F e) :
    m.view.readAt (Elt F) (Rect.unit off S.size inb).toLoadRect (h.unread X) = X := by
  rw [View.readAt_eq_ld, h.read_unread, View.ld_unit_zero hz]

/-- A store through that rectangle, made last, leaves its payload, whatever the buffer held and whatever was stored
    before. -/
theorem store_whole (m : Memref sig .tc .vmem S e) (f : m.view.ty.Contents (Elt F)) {off : Fin S.rank → Nat} (hz : off = fun _ => 0)
    (inb : ∀ a, off a + S.size a ≤ S.size a) (p : S.Idx → Elt F e) (L : List (View.Piece (Elt F) S e)) :
    m.view.read (Elt F) (m.view.writes (Elt F) f (⟨Rect.unit off S.size inb, p⟩ :: L)) = p := by
  rw [View.read_writes_eq_canon _ _ _ (fun y => ⟨_, List.mem_cons.mpr (Or.inl rfl), View.mem_set_unit_zero hz inb y⟩),
    View.canon_cons_unit_zero hz]

/-- A load through it of what one such store left reads the stored payload back. -/
theorem reload_whole (m : Memref sig .tc .vmem S e) {off : Fin S.rank → Nat} (hz : off = fun _ => 0)
    (inb : ∀ a, off a + S.size a ≤ S.size a) (p : S.Idx → Elt F e) :
    m.view.readCov [(⟨Rect.unit off S.size inb, p⟩ : View.Piece (Elt F) S e)] (Rect.unit off S.size inb).toLoadRect = p :=
  View.readCov_unit_zero m.view hz inb p

end WholeBlock

/-! ## The body's triple, case by case -/

set_option maxHeartbeats 1000000 in
/-- At the first point of a run: on whole buffers, the feature block at `x`, the weight block at `w`, the output's buffer
    at `o` and the accumulator at anything, the body ends with the accumulator at the product added to zero and the
    other three untouched. -/
theorem body1_first (c : Dev nD) (E : Set ℕ) (i : grid1.Coords)
    (arg3 : Memref sig .tc .vmem S2048x256 .f32) (harg3 : arg3.IsWhole) (arg4 : Memref sig .tc .vmem S256x1024 .bf16) (harg4 : arg4.IsWhole)
    (arg5 : Memref sig .tc .vmem S2048x1024 .f32) (harg5 : arg5.IsWhole) (arg6 : Memref sig .tc .vmem S2048x1024 .f32) (harg6 : arg6.IsWhole)
    (hc0 : cond1_0 i) (hc1 : ¬cond1_1 i)
    (x : Vec F S2048x256 .f32) (w : Vec F S256x1024 .bf16) (o : Vec F S2048x1024 .f32) (K : PUnit → sProp 𝕄) :
    iprop(owns (c : Thread nD τ) arg3 fullShare x ∗ owns (c : Thread nD τ) arg4 fullShare w
        ∗ owns (c : Thread nD τ) arg5 fullShare o ∗ (∃ d, owns (c : Thread nD τ) arg6 fullShare d)
        ∗ (iprop(owns (c : Thread nD τ) arg3 fullShare x ∗ owns (c : Thread nD τ) arg4 fullShare w
            ∗ owns (c : Thread nD τ) arg5 fullShare o ∗ owns (c : Thread nD τ) arg6 fullShare (k1_pay2 x (k1_pay1 (F := F)) w)) -∗ K ⟨⟩))
      ⊢ wp frame (wpE (defs₀ (F := F)) Variants.none c none) E (cc1__conjunction_kernel i arg3 harg3 arg4 harg4 arg5 harg5 arg6 harg6) K := by
  simp only [cc1__conjunction_kernel_eq_skeleton]; unfold cc1__conjunction_kernel_skel
  unfold owns
  iintro ⟨⟨%f3, %hf3, H3⟩, ⟨%f4, %hf4, H4⟩, ⟨%f5, %hf5, H5⟩, ⟨%d6, %f6, -, H6⟩, Hk⟩
  obtain rfl := harg3.eq_unread hf3; obtain rfl := harg4.eq_unread hf4; obtain rfl := harg5.eq_unread hf5
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  rw [store_whole arg6 _ off0]
  sl_unfold_run_names
  rw [reload_whole arg6 off0, load_whole arg3 harg3 off0, load_whole arg4 harg4 off0]

set_option maxHeartbeats 1000000 in
/-- At a point inside a run: the accumulator at `a` ends at the product added to `a`; the other three untouched. -/
theorem body1_middle (c : Dev nD) (E : Set ℕ) (i : grid1.Coords)
    (arg3 : Memref sig .tc .vmem S2048x256 .f32) (harg3 : arg3.IsWhole) (arg4 : Memref sig .tc .vmem S256x1024 .bf16) (harg4 : arg4.IsWhole)
    (arg5 : Memref sig .tc .vmem S2048x1024 .f32) (harg5 : arg5.IsWhole) (arg6 : Memref sig .tc .vmem S2048x1024 .f32) (harg6 : arg6.IsWhole)
    (hc0 : ¬cond1_0 i) (hc1 : ¬cond1_1 i)
    (x : Vec F S2048x256 .f32) (w : Vec F S256x1024 .bf16) (o a : Vec F S2048x1024 .f32) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare o ∗ owns (c : Thread nD τ) arg6 fullShare (k1_pay2 x a w)) -∗ K ⟨⟩))
      ⊢ wp frame (wpE (defs₀ (F := F)) Variants.none c none) E (cc1__conjunction_kernel i arg3 harg3 arg4 harg4 arg5 harg5 arg6 harg6) K := by
  simp only [cc1__conjunction_kernel_eq_skeleton]; unfold cc1__conjunction_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  rw [store_whole arg6 _ off0]
  sl_unfold_run_names
  rw [load_whole arg3 harg3 off0, load_whole arg6 harg6 off0, load_whole arg4 harg4 off0]

set_option maxHeartbeats 1000000 in
/-- At the last point of a run: the accumulator at `a` ends at the product added to `a`, and the output's buffer, at
    anything, ends at the verdict on that; the inputs untouched. -/
theorem body1_last (c : Dev nD) (E : Set ℕ) (i : grid1.Coords)
    (arg3 : Memref sig .tc .vmem S2048x256 .f32) (harg3 : arg3.IsWhole) (arg4 : Memref sig .tc .vmem S256x1024 .bf16) (harg4 : arg4.IsWhole)
    (arg5 : Memref sig .tc .vmem S2048x1024 .f32) (harg5 : arg5.IsWhole) (arg6 : Memref sig .tc .vmem S2048x1024 .f32) (harg6 : arg6.IsWhole)
    (hc0 : ¬cond1_0 i) (hc1 : cond1_1 i)
    (x : Vec F S2048x256 .f32) (w : Vec F S256x1024 .bf16) (a : Vec F S2048x1024 .f32) (K : PUnit → sProp 𝕄) :
    iprop(owns (c : Thread nD τ) arg3 fullShare x ∗ owns (c : Thread nD τ) arg4 fullShare w
        ∗ (∃ d, owns (c : Thread nD τ) arg5 fullShare d) ∗ owns (c : Thread nD τ) arg6 fullShare a
        ∗ (iprop(owns (c : Thread nD τ) arg3 fullShare x ∗ owns (c : Thread nD τ) arg4 fullShare w
            ∗ owns (c : Thread nD τ) arg5 fullShare (k1_pay3 (k1_pay2 x a w)) ∗ owns (c : Thread nD τ) arg6 fullShare (k1_pay2 x a w)) -∗ K ⟨⟩))
      ⊢ wp frame (wpE (defs₀ (F := F)) Variants.none c none) E (cc1__conjunction_kernel i arg3 harg3 arg4 harg4 arg5 harg5 arg6 harg6) K := by
  simp only [cc1__conjunction_kernel_eq_skeleton]; unfold cc1__conjunction_kernel_skel
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [store_whole arg5 _ off0]
    sl_unfold_run_names
    rw [reload_whole arg6 off0, load_whole arg3 harg3 off0, load_whole arg6 harg6 off0, load_whole arg4 harg4 off0]
  iexists _; isplitr
  swap; · iexact H6
  ipureintro
  sl_unfold_run_names
  rw [store_whole arg6 _ off0, load_whole arg3 harg3 off0, load_whole arg6 harg6 off0, load_whole arg4 harg4 off0]

/-! ## The accumulator and the invariant, point by point -/

/-- At the first point of a run the accumulator ends at the point's product added to zero. -/
theorem acc1_first (c : Dev nD) (t : Fin cfg1.N) (h : t.val % 16 = 0) :
    acc1 V c t.val t.isLt = k1_pay2 (iblk1 V c 0 t) (k1_pay1 (F := F)) (iblk1 V c 1 t) := by
  obtain ⟨n, hn⟩ := t
  cases n with
  | zero => rfl
  | succ n => exact (if_pos h).trans rfl

/-- At any other point it ends at the point's product added to what the point before left. -/
theorem acc1_next (c : Dev nD) (t : Fin cfg1.N) (h : ¬t.val % 16 = 0) :
    acc1 V c t.val t.isLt
      = k1_pay2 (iblk1 V c 0 t) (acc1 V c (t.val - 1) (Nat.lt_of_le_of_lt (Nat.sub_le _ _) t.isLt)) (iblk1 V c 1 t) := by
  obtain ⟨n, hn⟩ := t
  cases n with
  | zero => exact absurd (Nat.zero_mod _) h
  | succ n => exact (if_neg h).trans rfl

/-- The class invariant with the accumulator taken out of the scoped buffers that are no staging buffer of this
    region: the accumulator at some contents, the other four unopened, the generator register at some state. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1, owns_whole]
  try rfl

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0] ∗ (∃ r, prngReg c r)) := rfl

/-- Before a point that is not the first: the accumulator at what the point before left. -/
theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation -/

/-- An input window's staging buffer holds the point's block of its array whenever the body is called: the block is
    fetched at every point and the body only reads it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4000000 in
/-- The body at any point. The inputs' buffers hold their blocks; the point's place in its run of sixteen says which
    triple applies; the invariant hands the body the accumulator (at anything before the very first point, at what the
    point before left afterwards) and takes it back at this point's contents; off the last point of a run the output's
    buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 128 := lt_of_lt_of_eq t.isLt (show cfg1.N = 128 from N_1)
  by_cases h0 : t.val % 16 = 0
  · have h1 : ¬t.val % 16 = 15 := by omega
    rw [Dat.leavesExact_idle (dat1 V c) 2 t (idleAt1_2 t h1) (noFlush1_2 t h1)]
    rw [acc1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩⟩
      iapply (body1_first c Set.univ (grid1.coords t) _ _ _ _ _ _ _ _ ((hcond1_0 t).mpr h0) (fun h => h1 ((hcond1_1 t).mp h))
        (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨HS, HR, Hg⟩, Ho, ⟨%d0, H0⟩, ⟨%d1, H1⟩, ⟨%d2, H2⟩⟩
      iapply (body1_first c Set.univ (grid1.coords t) _ _ _ _ _ _ _ _ ((hcond1_0 t).mpr h0) (fun h => h1 ((hcond1_1 t).mp h))
        (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun hz => h0 (by rw [hz])
    rw [acc1_next V c t h0, PhiS1_castSucc V c t, PhiS1_pos V c _ _ hz]
    by_cases h1 : t.val % 16 = 15
    · rw [show (dat1 V c).leavesExact 2 t = owns (c : Thread nD τ) (st1_2 t) fullShare ((dat1 V c).after 2 t) from by
        unfold Dat.leavesExact; rw [liveAt1_2 t h1], after1_2]
      unfold out1_2
      rw [acc1_next V c t h0]
      iintro ⟨⟨HS, HR, Hg⟩, Ho, ⟨%d0, H0⟩, ⟨%d1, H1⟩, ⟨%d2, H2⟩⟩
      iapply (body1_last c Set.univ (grid1.coords t) _ _ _ _ _ _ _ _ (fun h => h0 ((hcond1_0 t).mp h)) ((hcond1_1 t).mpr h1)
        (iblk1 V c 0 t) (iblk1 V c 1 t) (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat1 V c) 2 t (idleAt1_2 t h1) (noFlush1_2 t h1)]
      iintro ⟨⟨HS, HR, Hg⟩, Ho, ⟨%d0, H0⟩, ⟨%d1, H1⟩, ⟨%d2, H2⟩⟩
      iapply (body1_middle c Set.univ (grid1.coords t) _ _ _ _ _ _ _ _ (fun h => h0 ((hcond1_0 t).mp h)) (fun h => h1 ((hcond1_1 t).mp h))
        (iblk1 V c 0 t) (iblk1 V c 1 t) ((dat1 V c).before 2 t d2) (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The region's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, HR, Hg⟩
  isplitl [HS HR]
  · isplitl [HS]
    · iexists _; iexact HS
    iexact HR
  iexact Hg

/-- After the last point the invariant gives the launch's back: the accumulator's contents are forgotten. -/
theorem hout1 (c : Dev nD) : (dat1 V c).Φ (Fin.last cfg1.N) ⊢ Pipeline.ΦA spec1 c :=
  Phi_out1 V c _ (by rw [Fin.val_last]; have : cfg1.N = 128 := N_1; omega)

end

end Cert.Kernel.Hand

end
-- ==== Proof.RunBits.lean ====
/-
  The whole run of the two-launch program, at any float instance.
  The program is two kernel regions in a row with no host operation between or around them. The core's unscoped
  buffers are followed from the launch through both: the first region is entered at the launch contents and leaves
  its arrays (the weight matrix, unchanged; the marked matrix, block by block what its points wrote back) at what the
  pipeline computes from its proof data, every other buffer as it was; the second is entered at those contents and
  leaves its own arrays likewise. Read at the end: the result array holds what the second region's write-backs left,
  and the two argument arrays hold their launch contents, since no region writes either.
-/
import proofs.«100908_j52493090291974_2_alg».proof.Proof.BinarizeBits
import proofs.«100908_j52493090291974_2_alg».proof.Proof.ConjBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the three boundaries -/

/-- Core `c`'s buffers at launch, which is where the first region is entered. -/
abbrev B0 : Dev nD → Valuation τ sig (Elt F) := fun c b => m ((c : Dev nD), b)
abbrev E0 : (c : Dev nD) → (b : Ref sig .tc) → Buf (Elt F) ((c : Thread nD τ).loc b) := fun c b => B0 m c b

/-- After the first region: its arrays at what its write-backs leave, every other buffer as entered. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem keeps0 (c : Dev nD) (w : Fin cfg0.W) : (dat0 (E0 m) c).arrAt w cfg0.N = E1 m c (Pipeline.arrRef spec0 w) :=
  (B1_arr m c w).symm
theorem rest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After the second region: its arrays at what its write-backs leave, every other buffer as entered. -/
def B2 (c : Dev nD) : Valuation τ sig (Elt F) :=
  Pipeline.withArrays spec1 c (B1 m c) fun w => (dat1 (E1 m) c).arrAt w cfg1.N
theorem B2_arr (c : Dev nD) (w : Fin cfg1.W) :
    B2 m c (Proc.devRef .tc (Pipeline.arrRef spec1 w)) = (dat1 (E1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
abbrev E2 : (c : Dev nD) → (b : Ref sig .tc) → Buf (Elt F) ((c : Thread nD τ).loc b) := fun c b => B2 m c b
theorem keeps1 (c : Dev nD) (w : Fin cfg1.W) : (dat1 (E1 m) c).arrAt w cfg1.N = E2 m c (Pipeline.arrRef spec1 w) :=
  (B2_arr m c w).symm
theorem rest1 (c : Dev nD) : ∀ b, b ∉ Finset.univ.image (Pipeline.arrRef spec1) → E2 m c b = E1 m c b :=
  fun b hb => B2_of_ne m c b fun w e => hb (Finset.mem_image.mpr ⟨w, Finset.mem_univ _, e⟩)

/-! ## What the three named arrays hold at the end -/

/-- The feature matrix: the second region only reads it, the first does not touch it. -/
theorem B2_main_arg0 (c : Dev nD) : B2 m c (Proc.devRef .tc main_arg0) = m ((c : Thread nD τ).loc main_arg0) :=
  calc B2 m c (Proc.devRef .tc main_arg0)
    _ = B1 m c (Proc.devRef .tc main_arg0) := (B2_arr m c 0).trans (((dat1 (E1 m) c).arrAt_in 0 rfl _).trans (A_eq1 (E1 m) c 0))
    _ = B0 m c (Proc.devRef .tc main_arg0) := B1_of_ne m c main_arg0 (by decide)
    _ = m ((c : Thread nD τ).loc main_arg0) := rfl

/-- The weight matrix: the first region only reads it, the second does not touch it. -/
theorem B2_main_arg1 (c : Dev nD) : B2 m c (Proc.devRef .tc main_arg1) = m ((c : Thread nD τ).loc main_arg1) :=
  calc B2 m c (Proc.devRef .tc main_arg1)
    _ = B1 m c (Proc.devRef .tc main_arg1) := B2_of_ne m c main_arg1 (by decide)
    _ = B0 m c (Proc.devRef .tc main_arg1) := (B1_arr m c 0).trans (((dat0 (E0 m) c).arrAt_in 0 rfl _).trans (A_eq0 (E0 m) c 0))
    _ = m ((c : Thread nD τ).loc main_arg1) := rfl

/-- The result: what the second region's write-backs leave. -/
theorem B2_main_v1 (c : Dev nD) : B2 m c (Proc.devRef .tc main_v1) = (dat1 (E1 m) c).arrAt 2 cfg1.N :=
  B2_arr m c 2

/-- What the second region finds in the marked matrix: what the first region's write-backs left. -/
theorem E1_main_v0 (c : Dev nD) : E1 m c main_v0 = (dat0 (E0 m) c).arrAt 1 cfg0.N :=
  B1_arr m c 1

/-- What the second region finds in the feature matrix: the launch contents. -/
theorem E1_main_arg0 (c : Dev nD) : E1 m c main_arg0 = m ((c : Thread nD τ).loc main_arg0) :=
  B1_of_ne m c main_arg0 (by decide)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through both regions: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B2 m c) ∗ ∃ r, prngReg c r)

/-! ## The two regions as segments -/

set_option backward.isDefEq.respectTransparency.types false in
/-- The first region: entered with every unscoped buffer at the launch contents, left with them at `B1`. Its arrays are
    split out of the unscoped buffers and put back at the exit contents; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (keeps0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `B1`, left with them at `B2`. As the first, except that its
    invariant tracks the accumulator: what the launch hands it becomes the invariant before the first point, and the
    invariant after the last point gives it back with the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (B1 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (E1 m) c)
    unfold Pipeline.ΦA
    iintro ⟨Hp, -, Hr⟩
    isplitl [Hr]; · iexact Hr
    iexact Hp
  hout c := by
    rw [Pipeline.ownSems0_none]
    refine (hout1 (E1 m) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (keeps1 m c) (rest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

variable (ρ : Dev nD → PrngReg)

set_option backward.isDefEq.respectTransparency.types false in
/-- THE RUN. From any memory with every counter at zero, every weakly fair execution of the program on the TensorCores
    terminates, nothing faulting, and in every final state the result array holds what the second region's write-backs
    left and both argument arrays hold their launch contents. -/
theorem run_main : θ_run defs (onTc (τ := τ) (main (F := F))) ⟨m, fun _ => 0, ρ⟩ (fun r => ∀ c : Dev nD,
      r.2.mem ((c.tc : Thread nD τ).loc main_v1) = (dat1 (E1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B2 m c b)
    (hfin := fun c s' => by
      iintro ⟨⟨Hh, -⟩, HSI⟩
      unfold StableHlo.held
      imodintro
      iapply (pointsTo_read_all (Pipeline.ucRefs τ sig) (fun b => (((c : Thread nD τ)).1, b)) (B2 m c) s')
      isplitl [Hh] <;> iassumption)
    (hQ := fun s h c =>
      ⟨(h c _ (mem_uc main_v1 (by decide))).trans (B2_main_v1 m c),
       (h c _ (mem_uc main_arg0 (by decide))).trans (B2_main_arg0 m c),
       (h c _ (mem_uc main_arg1 (by decide))).trans (B2_main_arg1 m c)⟩)

end Cert.Kernel.Hand

end
-- ==== Proof.BinarizeIdeal.lean ====
/-
  The thresholding region (the first of the program's two kernel launches), at any float instance.
  Its grid is 4 × 2; at a point the body loads the 1024 × 1024 block of the weight matrix the point's
  window stages, compares it entrywise with one half, and stores the 0/1 answer into the block of the
  narrowed matrix at the same position. The body keeps nothing between points and touches nothing but
  its two staging buffers, so the region's invariant is "every other scoped buffer at some contents,
  the generator register at some state", the same at every point. Everything is stated at a parameter
  `V`: what the core's buffers hold when the region is entered.
-/
import proofs.«100908_j52493090291974_2_alg».proof.Proof.Gen.KernelIdeal.Launch
import proofs.«100908_j52493090291974_2_alg».proof.Proof.Gen.KernelIdeal.Skeleton
import proofs.«100908_j52493090291974_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block of the weight matrix whenever the body is called:
    the block is fetched at every point and the body only reads it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes through: the whole 1024 × 1024 block. -/
abbrev whole0 : Rect S1024x1024 := Rect.unit (s := S1024x1024) ![0, 0] S1024x1024.size inb_S1024x1024_S1024x1024_0_0

/-- What the body leaves in the output window's staging buffer, from the input block `x0`: the thresholded block,
    stored through the whole-block rectangle. -/
def out0_1 (x0 : Vec F S1024x1024 .f32) : Vec F S1024x1024 .bf16 :=
  View.canon [⟨whole0, k0_pay1 (View.ld x0 whole0)⟩]

/-- The single store covers the block. -/
theorem cover0_1 (p0 : Vec F S1024x1024 .bf16) (y : S1024x1024.Idx) :
    ∃ pc ∈ ([⟨whole0, p0⟩] : List (View.Piece (Elt F) S1024x1024 .bf16)), y ∈ pc.1.set :=
  View.cover_of_tiled [⟨whole0, p0⟩] S1024x1024.size (by rfl) y

set_option maxHeartbeats 1000000 in
/-- The body's triple on whole staging buffers: the input's at `x0`, the output's at anything; it ends with the input's
    unchanged and the output's at `out0_1 x0`. -/
theorem sound_kernel0 (c : Dev nD) (E : Set ℕ) (i : grid0.Coords) (arg2 : Memref sig .tc .vmem S1024x1024 .f32) (harg2 : arg2.IsWhole) (arg3 : Memref sig .tc .vmem S1024x1024 .bf16) (harg3 : arg3.IsWhole)
    (x0 : Vec F S1024x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__binarize_kernel i arg2 harg2 arg3 harg3) K := by
  simp only [cc0__binarize_kernel_eq_skeleton]; unfold cc0__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The region's proof data on core `c`: its arrays as the region finds them; after the body at point `t` the input's
    buffer still at its block and the output's at the thresholded block; the invariant constant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds the point's block, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The region's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.ConjIdeal.lean ====
/-
  The accumulating region (the second of the program's two kernel launches), at any float instance.
  Its grid is 4 × 2 × 16, the last axis the contraction's. At a point the body finds the 2048 × 256 block of the
  feature matrix and the 256 × 1024 block of the marked weights its windows stage, and a 2048 × 1024 accumulator of
  its own that it keeps between points: at the first point of each run of sixteen it resets the accumulator to zero,
  at every point it adds the product of (1 − the feature block) with the weight block, and at the last point of the
  run it stores the verdict on the accumulator (0 where positive, 1 elsewhere) into the output window, which is
  written back only there. Everything is stated at a parameter `V`: what the core's buffers hold when the region is
  entered.
-/
import proofs.«100908_j52493090291974_2_alg».proof.Proof.Gen.KernelIdeal.Launch
import proofs.«100908_j52493090291974_2_alg».proof.Proof.Gen.KernelIdeal.Skeleton
import proofs.«100908_j52493090291974_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at point `n`: at the first point of a run of sixteen the point's product added to
    zero, elsewhere added to what the point before left. -/
def acc1 (c : Dev nD) : (n : ℕ) → n < cfg1.N → Vec F S2048x1024 .f32
  | 0, hn => k1_pay2 (iblk1 V c 0 ⟨0, hn⟩) (k1_pay1 (F := F)) (iblk1 V c 1 ⟨0, hn⟩)
  | n + 1, hn =>
    if (n + 1) % 16 = 0 then
      k1_pay2 (iblk1 V c 0 ⟨n + 1, hn⟩) (k1_pay1 (F := F)) (iblk1 V c 1 ⟨n + 1, hn⟩)
    else
      k1_pay2 (iblk1 V c 0 ⟨n + 1, hn⟩) (acc1 c n (Nat.lt_of_succ_lt hn)) (iblk1 V c 1 ⟨n + 1, hn⟩)

/-- What the output window's staging buffer holds after the body at point `t` (read only where the run of sixteen ends:
    elsewhere the window is idle): the verdict on the accumulator. -/
def out1_2 (c : Dev nD) (t : Fin cfg1.N) : Vec F S2048x1024 .f32 := k1_pay3 (acc1 V c t.val t.isLt)

/-- The accumulator as a whole scoped buffer of the kernel's own. -/
abbrev scM1 : Memref sig .tc .vmem S2048x1024 .f32 := Memref.whole cc1_scratch0

/-- The region's invariant before position `n`: before the first point every scoped buffer that is no staging buffer of
    this region at some contents and the generator register at some state; afterwards the same with the accumulator at
    what the point before left in it. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0] ∗ (∃ r, prngReg c r))

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 V c t := by dsimp only [dat1]

/-! ## The body's two conditions over the grid -/

/-- The body's first condition: the contraction coordinate is zero. -/
abbrev cond1_0 (i : grid1.Coords) : Prop :=
  (Scalar.cmpi .ne (Scalar.extui (Scalar.cmpi .eq (BitVec.ofNat 32 (i 2).val) 0#32)) 0#32) = 1#1
/-- It holds exactly at the first point of each run of sixteen. -/
theorem hcond1_0 : ∀ t : Fin cfg1.N, cond1_0 (grid1.coords t) ↔ t.val % 16 = 0 :=
  (by decide +kernel : ∀ t : Fin grid1.N, cond1_0 (grid1.coords t) ↔ t.val % 16 = 0)

/-- The body's second condition: the contraction coordinate is fifteen. -/
abbrev cond1_1 (i : grid1.Coords) : Prop := k1_cond2 i = 1#1
/-- It holds exactly at the last point of each run of sixteen. -/
theorem hcond1_1 : ∀ t : Fin cfg1.N, cond1_1 (grid1.coords t) ↔ t.val % 16 = 15 :=
  (by decide +kernel : ∀ t : Fin grid1.N, cond1_1 (grid1.coords t) ↔ t.val % 16 = 15)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle, and not written back, off the last point of a run; live at it. -/
theorem idleAt1_2 : ∀ t : Fin cfg1.N, ¬t.val % 16 = 15 → cfg1.idle 2 (grid1.coords t) = true := by decide +kernel
theorem noFlush1_2 : ∀ t : Fin cfg1.N, ¬t.val % 16 = 15 → (cfg1.win 2).flush t = false := by decide +kernel
theorem liveAt1_2 : ∀ t : Fin cfg1.N, t.val % 16 = 15 → cfg1.idle 2 (grid1.coords t) = false := by decide +kernel

/-! ## Loads and stores through a whole block -/

/-- The zero offsets of the body's rectangles, as a constant function. -/
theorem off0 : (![0, 0] : Fin 2 → Nat) = fun _ => 0 := by funext a; fin_cases a <;> rfl

section WholeBlock
variable {S : Shape} {e : EltTy}

/-- A load of a whole buffer through the rectangle of the whole block reads what the buffer holds. -/
theorem load_whole (m : Memref sig .tc .vmem S e) (h : m.IsWhole) {off : Fin S.rank → Nat} (hz : off = fun _ => 0)
    (inb : ∀ a, off a + S.size a ≤ S.size a) (X : S.Idx → Elt F e) :
    m.view.readAt (Elt F) (Rect.unit off S.size inb).toLoadRect (h.unread X) = X := by
  rw [View.readAt_eq_ld, h.read_unread, View.ld_unit_zero hz]

/-- A store through that rectangle, made last, leaves its payload, whatever the buffer held and whatever was stored
    before. -/
theorem store_whole (m : Memref sig .tc .vmem S e) (f : m.view.ty.Contents (Elt F)) {off : Fin S.rank → Nat} (hz : off = fun _ => 0)
    (inb : ∀ a, off a + S.size a ≤ S.size a) (p : S.Idx → Elt F e) (L : List (View.Piece (Elt F) S e)) :
    m.view.read (Elt F) (m.view.writes (Elt F) f (⟨Rect.unit off S.size inb, p⟩ :: L)) = p := by
  rw [View.read_writes_eq_canon _ _ _ (fun y => ⟨_, List.mem_cons.mpr (Or.inl rfl), View.mem_set_unit_zero hz inb y⟩),
    View.canon_cons_unit_zero hz]

/-- A load through it of what one such store left reads the stored payload back. -/
theorem reload_whole (m : Memref sig .tc .vmem S e) {off : Fin S.rank → Nat} (hz : off = fun _ => 0)
    (inb : ∀ a, off a + S.size a ≤ S.size a) (p : S.Idx → Elt F e) :
    m.view.readCov [(⟨Rect.unit off S.size inb, p⟩ : View.Piece (Elt F) S e)] (Rect.unit off S.size inb).toLoadRect = p :=
  View.readCov_unit_zero m.view hz inb p

end WholeBlock

/-! ## The body's triple, case by case -/

set_option maxHeartbeats 1000000 in
/-- At the first point of a run: on whole buffers, the feature block at `x`, the weight block at `w`, the output's buffer
    at `o` and the accumulator at anything, the body ends with the accumulator at the product added to zero and the
    other three untouched. -/
theorem body1_first (c : Dev nD) (E : Set ℕ) (i : grid1.Coords)
    (arg3 : Memref sig .tc .vmem S2048x256 .f32) (harg3 : arg3.IsWhole) (arg4 : Memref sig .tc .vmem S256x1024 .bf16) (harg4 : arg4.IsWhole)
    (arg5 : Memref sig .tc .vmem S2048x1024 .f32) (harg5 : arg5.IsWhole) (arg6 : Memref sig .tc .vmem S2048x1024 .f32) (harg6 : arg6.IsWhole)
    (hc0 : cond1_0 i) (hc1 : ¬cond1_1 i)
    (x : Vec F S2048x256 .f32) (w : Vec F S256x1024 .bf16) (o : Vec F S2048x1024 .f32) (K : PUnit → sProp 𝕄) :
    iprop(owns (c : Thread nD τ) arg3 fullShare x ∗ owns (c : Thread nD τ) arg4 fullShare w
        ∗ owns (c : Thread nD τ) arg5 fullShare o ∗ (∃ d, owns (c : Thread nD τ) arg6 fullShare d)
        ∗ (iprop(owns (c : Thread nD τ) arg3 fullShare x ∗ owns (c : Thread nD τ) arg4 fullShare w
            ∗ owns (c : Thread nD τ) arg5 fullShare o ∗ owns (c : Thread nD τ) arg6 fullShare (k1_pay2 x (k1_pay1 (F := F)) w)) -∗ K ⟨⟩))
      ⊢ wp frame (wpE (defs₀ (F := F)) Variants.none c none) E (cc1__conjunction_kernel i arg3 harg3 arg4 harg4 arg5 harg5 arg6 harg6) K := by
  simp only [cc1__conjunction_kernel_eq_skeleton]; unfold cc1__conjunction_kernel_skel
  unfold owns
  iintro ⟨⟨%f3, %hf3, H3⟩, ⟨%f4, %hf4, H4⟩, ⟨%f5, %hf5, H5⟩, ⟨%d6, %f6, -, H6⟩, Hk⟩
  obtain rfl := harg3.eq_unread hf3; obtain rfl := harg4.eq_unread hf4; obtain rfl := harg5.eq_unread hf5
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  rw [store_whole arg6 _ off0]
  sl_unfold_run_names
  rw [reload_whole arg6 off0, load_whole arg3 harg3 off0, load_whole arg4 harg4 off0]

set_option maxHeartbeats 1000000 in
/-- At a point inside a run: the accumulator at `a` ends at the product added to `a`; the other three untouched. -/
theorem body1_middle (c : Dev nD) (E : Set ℕ) (i : grid1.Coords)
    (arg3 : Memref sig .tc .vmem S2048x256 .f32) (harg3 : arg3.IsWhole) (arg4 : Memref sig .tc .vmem S256x1024 .bf16) (harg4 : arg4.IsWhole)
    (arg5 : Memref sig .tc .vmem S2048x1024 .f32) (harg5 : arg5.IsWhole) (arg6 : Memref sig .tc .vmem S2048x1024 .f32) (harg6 : arg6.IsWhole)
    (hc0 : ¬cond1_0 i) (hc1 : ¬cond1_1 i)
    (x : Vec F S2048x256 .f32) (w : Vec F S256x1024 .bf16) (o a : Vec F S2048x1024 .f32) (K : PUnit → sProp 𝕄) :
    iprop(owns (c : Thread nD τ) arg3 fullShare x ∗ owns (c : Thread nD τ) arg4 fullShare w
        ∗ owns (c : Thread nD τ) arg5 fullShare o ∗ owns (c : Thread nD τ) arg6 fullShare a
        ∗ (iprop(owns (c : Thread nD τ) arg3 fullShare x ∗ owns (c : Thread nD τ) arg4 fullShare w
            ∗ owns (c : Thread nD τ) arg5 fullShare o ∗ owns (c : Thread nD τ) arg6 fullShare (k1_pay2 x a w)) -∗ K ⟨⟩))
      ⊢ wp frame (wpE (defs₀ (F := F)) Variants.none c none) E (cc1__conjunction_kernel i arg3 harg3 arg4 harg4 arg5 harg5 arg6 harg6) K := by
  simp only [cc1__conjunction_kernel_eq_skeleton]; unfold cc1__conjunction_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  rw [store_whole arg6 _ off0]
  sl_unfold_run_names
  rw [load_whole arg3 harg3 off0, load_whole arg6 harg6 off0, load_whole arg4 harg4 off0]

set_option maxHeartbeats 1000000 in
/-- At the last point of a run: the accumulator at `a` ends at the product added to `a`, and the output's buffer, at
    anything, ends at the verdict on that; the inputs untouched. -/
theorem body1_last (c : Dev nD) (E : Set ℕ) (i : grid1.Coords)
    (arg3 : Memref sig .tc .vmem S2048x256 .f32) (harg3 : arg3.IsWhole) (arg4 : Memref sig .tc .vmem S256x1024 .bf16) (harg4 : arg4.IsWhole)
    (arg5 : Memref sig .tc .vmem S2048x1024 .f32) (harg5 : arg5.IsWhole) (arg6 : Memref sig .tc .vmem S2048x1024 .f32) (harg6 : arg6.IsWhole)
    (hc0 : ¬cond1_0 i) (hc1 : cond1_1 i)
    (x : Vec F S2048x256 .f32) (w : Vec F S256x1024 .bf16) (a : Vec F S2048x1024 .f32) (K : PUnit → sProp 𝕄) :
    iprop(owns (c : Thread nD τ) arg3 fullShare x ∗ owns (c : Thread nD τ) arg4 fullShare w
        ∗ (∃ d, owns (c : Thread nD τ) arg5 fullShare d) ∗ owns (c : Thread nD τ) arg6 fullShare a
        ∗ (iprop(owns (c : Thread nD τ) arg3 fullShare x ∗ owns (c : Thread nD τ) arg4 fullShare w
            ∗ owns (c : Thread nD τ) arg5 fullShare (k1_pay3 (k1_pay2 x a w)) ∗ owns (c : Thread nD τ) arg6 fullShare (k1_pay2 x a w)) -∗ K ⟨⟩))
      ⊢ wp frame (wpE (defs₀ (F := F)) Variants.none c none) E (cc1__conjunction_kernel i arg3 harg3 arg4 harg4 arg5 harg5 arg6 harg6) K := by
  simp only [cc1__conjunction_kernel_eq_skeleton]; unfold cc1__conjunction_kernel_skel
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [store_whole arg5 _ off0]
    sl_unfold_run_names
    rw [reload_whole arg6 off0, load_whole arg3 harg3 off0, load_whole arg6 harg6 off0, load_whole arg4 harg4 off0]
  iexists _; isplitr
  swap; · iexact H6
  ipureintro
  sl_unfold_run_names
  rw [store_whole arg6 _ off0, load_whole arg3 harg3 off0, load_whole arg6 harg6 off0, load_whole arg4 harg4 off0]

/-! ## The accumulator and the invariant, point by point -/

/-- At the first point of a run the accumulator ends at the point's product added to zero. -/
theorem acc1_first (c : Dev nD) (t : Fin cfg1.N) (h : t.val % 16 = 0) :
    acc1 V c t.val t.isLt = k1_pay2 (iblk1 V c 0 t) (k1_pay1 (F := F)) (iblk1 V c 1 t) := by
  obtain ⟨n, hn⟩ := t
  cases n with
  | zero => rfl
  | succ n => exact (if_pos h).trans rfl

/-- At any other point it ends at the point's product added to what the point before left. -/
theorem acc1_next (c : Dev nD) (t : Fin cfg1.N) (h : ¬t.val % 16 = 0) :
    acc1 V c t.val t.isLt
      = k1_pay2 (iblk1 V c 0 t) (acc1 V c (t.val - 1) (Nat.lt_of_le_of_lt (Nat.sub_le _ _) t.isLt)) (iblk1 V c 1 t) := by
  obtain ⟨n, hn⟩ := t
  cases n with
  | zero => exact absurd (Nat.zero_mod _) h
  | succ n => exact (if_neg h).trans rfl

/-- The class invariant with the accumulator taken out of the scoped buffers that are no staging buffer of this
    region: the accumulator at some contents, the other four unopened, the generator register at some state. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1, owns_whole]
  try rfl

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0] ∗ (∃ r, prngReg c r)) := rfl

/-- Before a point that is not the first: the accumulator at what the point before left. -/
theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation -/

/-- An input window's staging buffer holds the point's block of its array whenever the body is called: the block is
    fetched at every point and the body only reads it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4000000 in
/-- The body at any point. The inputs' buffers hold their blocks; the point's place in its run of sixteen says which
    triple applies; the invariant hands the body the accumulator (at anything before the very first point, at what the
    point before left afterwards) and takes it back at this point's contents; off the last point of a run the output's
    buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 128 := lt_of_lt_of_eq t.isLt (show cfg1.N = 128 from N_1)
  by_cases h0 : t.val % 16 = 0
  · have h1 : ¬t.val % 16 = 15 := by omega
    rw [Dat.leavesExact_idle (dat1 V c) 2 t (idleAt1_2 t h1) (noFlush1_2 t h1)]
    rw [acc1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩⟩
      iapply (body1_first c Set.univ (grid1.coords t) _ _ _ _ _ _ _ _ ((hcond1_0 t).mpr h0) (fun h => h1 ((hcond1_1 t).mp h))
        (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨HS, HR, Hg⟩, Ho, ⟨%d0, H0⟩, ⟨%d1, H1⟩, ⟨%d2, H2⟩⟩
      iapply (body1_first c Set.univ (grid1.coords t) _ _ _ _ _ _ _ _ ((hcond1_0 t).mpr h0) (fun h => h1 ((hcond1_1 t).mp h))
        (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun hz => h0 (by rw [hz])
    rw [acc1_next V c t h0, PhiS1_castSucc V c t, PhiS1_pos V c _ _ hz]
    by_cases h1 : t.val % 16 = 15
    · rw [show (dat1 V c).leavesExact 2 t = owns (c : Thread nD τ) (st1_2 t) fullShare ((dat1 V c).after 2 t) from by
        unfold Dat.leavesExact; rw [liveAt1_2 t h1], after1_2]
      unfold out1_2
      rw [acc1_next V c t h0]
      iintro ⟨⟨HS, HR, Hg⟩, Ho, ⟨%d0, H0⟩, ⟨%d1, H1⟩, ⟨%d2, H2⟩⟩
      iapply (body1_last c Set.univ (grid1.coords t) _ _ _ _ _ _ _ _ (fun h => h0 ((hcond1_0 t).mp h)) ((hcond1_1 t).mpr h1)
        (iblk1 V c 0 t) (iblk1 V c 1 t) (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat1 V c) 2 t (idleAt1_2 t h1) (noFlush1_2 t h1)]
      iintro ⟨⟨HS, HR, Hg⟩, Ho, ⟨%d0, H0⟩, ⟨%d1, H1⟩, ⟨%d2, H2⟩⟩
      iapply (body1_middle c Set.univ (grid1.coords t) _ _ _ _ _ _ _ _ (fun h => h0 ((hcond1_0 t).mp h)) (fun h => h1 ((hcond1_1 t).mp h))
        (iblk1 V c 0 t) (iblk1 V c 1 t) ((dat1 V c).before 2 t d2) (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The region's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, HR, Hg⟩
  isplitl [HS HR]
  · isplitl [HS]
    · iexists _; iexact HS
    iexact HR
  iexact Hg

/-- After the last point the invariant gives the launch's back: the accumulator's contents are forgotten. -/
theorem hout1 (c : Dev nD) : (dat1 V c).Φ (Fin.last cfg1.N) ⊢ Pipeline.ΦA spec1 c :=
  Phi_out1 V c _ (by rw [Fin.val_last]; have : cfg1.N = 128 := N_1; omega)

end

end Cert.KernelIdeal.Hand

end
-- ==== Proof.RunIdeal.lean ====
/-
  The whole run of the two-launch program, at any float instance.
  The program is two kernel regions in a row with no host operation between or around them. The core's unscoped
  buffers are followed from the launch through both: the first region is entered at the launch contents and leaves
  its arrays (the weight matrix, unchanged; the marked matrix, block by block what its points wrote back) at what the
  pipeline computes from its proof data, every other buffer as it was; the second is entered at those contents and
  leaves its own arrays likewise. Read at the end: the result array holds what the second region's write-backs left,
  and the two argument arrays hold their launch contents, since no region writes either.
-/
import proofs.«100908_j52493090291974_2_alg».proof.Proof.BinarizeIdeal
import proofs.«100908_j52493090291974_2_alg».proof.Proof.ConjIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the three boundaries -/

/-- Core `c`'s buffers at launch, which is where the first region is entered. -/
abbrev B0 : Dev nD → Valuation τ sig (Elt F) := fun c b => m ((c : Dev nD), b)
abbrev E0 : (c : Dev nD) → (b : Ref sig .tc) → Buf (Elt F) ((c : Thread nD τ).loc b) := fun c b => B0 m c b

/-- After the first region: its arrays at what its write-backs leave, every other buffer as entered. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem keeps0 (c : Dev nD) (w : Fin cfg0.W) : (dat0 (E0 m) c).arrAt w cfg0.N = E1 m c (Pipeline.arrRef spec0 w) :=
  (B1_arr m c w).symm
theorem rest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After the second region: its arrays at what its write-backs leave, every other buffer as entered. -/
def B2 (c : Dev nD) : Valuation τ sig (Elt F) :=
  Pipeline.withArrays spec1 c (B1 m c) fun w => (dat1 (E1 m) c).arrAt w cfg1.N
theorem B2_arr (c : Dev nD) (w : Fin cfg1.W) :
    B2 m c (Proc.devRef .tc (Pipeline.arrRef spec1 w)) = (dat1 (E1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
abbrev E2 : (c : Dev nD) → (b : Ref sig .tc) → Buf (Elt F) ((c : Thread nD τ).loc b) := fun c b => B2 m c b
theorem keeps1 (c : Dev nD) (w : Fin cfg1.W) : (dat1 (E1 m) c).arrAt w cfg1.N = E2 m c (Pipeline.arrRef spec1 w) :=
  (B2_arr m c w).symm
theorem rest1 (c : Dev nD) : ∀ b, b ∉ Finset.univ.image (Pipeline.arrRef spec1) → E2 m c b = E1 m c b :=
  fun b hb => B2_of_ne m c b fun w e => hb (Finset.mem_image.mpr ⟨w, Finset.mem_univ _, e⟩)

/-! ## What the three named arrays hold at the end -/

/-- The feature matrix: the second region only reads it, the first does not touch it. -/
theorem B2_main_arg0 (c : Dev nD) : B2 m c (Proc.devRef .tc main_arg0) = m ((c : Thread nD τ).loc main_arg0) :=
  calc B2 m c (Proc.devRef .tc main_arg0)
    _ = B1 m c (Proc.devRef .tc main_arg0) := (B2_arr m c 0).trans (((dat1 (E1 m) c).arrAt_in 0 rfl _).trans (A_eq1 (E1 m) c 0))
    _ = B0 m c (Proc.devRef .tc main_arg0) := B1_of_ne m c main_arg0 (by decide)
    _ = m ((c : Thread nD τ).loc main_arg0) := rfl

/-- The weight matrix: the first region only reads it, the second does not touch it. -/
theorem B2_main_arg1 (c : Dev nD) : B2 m c (Proc.devRef .tc main_arg1) = m ((c : Thread nD τ).loc main_arg1) :=
  calc B2 m c (Proc.devRef .tc main_arg1)
    _ = B1 m c (Proc.devRef .tc main_arg1) := B2_of_ne m c main_arg1 (by decide)
    _ = B0 m c (Proc.devRef .tc main_arg1) := (B1_arr m c 0).trans (((dat0 (E0 m) c).arrAt_in 0 rfl _).trans (A_eq0 (E0 m) c 0))
    _ = m ((c : Thread nD τ).loc main_arg1) := rfl

/-- The result: what the second region's write-backs leave. -/
theorem B2_main_v1 (c : Dev nD) : B2 m c (Proc.devRef .tc main_v1) = (dat1 (E1 m) c).arrAt 2 cfg1.N :=
  B2_arr m c 2

/-- What the second region finds in the marked matrix: what the first region's write-backs left. -/
theorem E1_main_v0 (c : Dev nD) : E1 m c main_v0 = (dat0 (E0 m) c).arrAt 1 cfg0.N :=
  B1_arr m c 1

/-- What the second region finds in the feature matrix: the launch contents. -/
theorem E1_main_arg0 (c : Dev nD) : E1 m c main_arg0 = m ((c : Thread nD τ).loc main_arg0) :=
  B1_of_ne m c main_arg0 (by decide)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through both regions: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B2 m c) ∗ ∃ r, prngReg c r)

/-! ## The two regions as segments -/

set_option backward.isDefEq.respectTransparency.types false in
/-- The first region: entered with every unscoped buffer at the launch contents, left with them at `B1`. Its arrays are
    split out of the unscoped buffers and put back at the exit contents; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (keeps0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `B1`, left with them at `B2`. As the first, except that its
    invariant tracks the accumulator: what the launch hands it becomes the invariant before the first point, and the
    invariant after the last point gives it back with the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (B1 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (E1 m) c)
    unfold Pipeline.ΦA
    iintro ⟨Hp, -, Hr⟩
    isplitl [Hr]; · iexact Hr
    iexact Hp
  hout c := by
    rw [Pipeline.ownSems0_none]
    refine (hout1 (E1 m) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (keeps1 m c) (rest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

variable (ρ : Dev nD → PrngReg)

set_option backward.isDefEq.respectTransparency.types false in
/-- THE RUN. From any memory with every counter at zero, every weakly fair execution of the program on the TensorCores
    terminates, nothing faulting, and in every final state the result array holds what the second region's write-backs
    left and both argument arrays hold their launch contents. -/
theorem run_main : θ_run defs (onTc (τ := τ) (main (F := F))) ⟨m, fun _ => 0, ρ⟩ (fun r => ∀ c : Dev nD,
      r.2.mem ((c.tc : Thread nD τ).loc main_v1) = (dat1 (E1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B2 m c b)
    (hfin := fun c s' => by
      iintro ⟨⟨Hh, -⟩, HSI⟩
      unfold StableHlo.held
      imodintro
      iapply (pointsTo_read_all (Pipeline.ucRefs τ sig) (fun b => (((c : Thread nD τ)).1, b)) (B2 m c) s')
      isplitl [Hh] <;> iassumption)
    (hQ := fun s h c =>
      ⟨(h c _ (mem_uc main_v1 (by decide))).trans (B2_main_v1 m c),
       (h c _ (mem_uc main_arg0 (by decide))).trans (B2_main_arg0 m c),
       (h c _ (mem_uc main_arg1 (by decide))).trans (B2_main_arg1 m c)⟩)

end Cert.KernelIdeal.Hand

end
-- ==== Proof.Spec.lean ====
/-
  The function both programs compute, on the extended reals.

  For a feature matrix x (8192 × 4096) and a weight matrix W (4096 × 2048): a weight is MARKED when it is above one
  half (the mark is 1, otherwise 0); the SCORE of row r against column j is the sum over k of (1 − x[r,k]) times the
  mark of W[k,j]; and the result at (r, j) is 0 where the score is positive and 1 elsewhere. The three float
  literals (one half, one, zero) are kept as the ideal values of their 32-bit words: both programs spell the same
  words, so they are never evaluated.
-/
import Idealize.ShloMosaic.PureOps.Ideal
import Idealize.ShloMosaic.Lib.ValueIdx

noncomputable section

open scoped BigOperators

namespace Cert.Spec

open Idealize.ShloMosaic Idealize.ShloMosaic.ValueIdx

/-- The 0/1 mark of a weight above one half. -/
def mark (w : Ideal .f32) : Ideal .f32 :=
  FloatOps.uitofp (F := Ideal) .f32 (FloatOps.cmpf (F := Ideal) .ogt w (FloatOps.ofBits (F := Ideal) .f32 0x3F000000#32))

/-- The score of row `r` against column `j`: the sum over `k` of (1 − x[r,k]) · mark W[k,j]. -/
def score (x : FVec Ideal ⟨2, ![8192, 4096]⟩ .f32) (W : FVec Ideal ⟨2, ![4096, 2048]⟩ .f32) (r : Fin 8192) (j : Fin 2048) : Ideal .f32 :=
  ∑ k : Fin 4096, (FloatOps.ofBits (F := Ideal) .f32 0x3F800000#32 - x (ix2 r k)) * mark (W (ix2 k j))

/-- The decision on a score: 0 where it is positive, 1 elsewhere. -/
def verdict (s : Ideal .f32) : Ideal .f32 :=
  Scalar.select (FloatOps.cmpf (F := Ideal) .ogt s (FloatOps.ofBits (F := Ideal) .f32 0x00000000#32))
    (FloatOps.ofBits (F := Ideal) .f32 0x00000000#32) (FloatOps.ofBits (F := Ideal) .f32 0x3F800000#32)

/-- The result array: the verdict on every row's score against every column. -/
def G (x : FVec Ideal ⟨2, ![8192, 4096]⟩ .f32) (W : FVec Ideal ⟨2, ![4096, 2048]⟩ .f32) : FVec Ideal ⟨2, ![8192, 2048]⟩ .f32 :=
  fun i => verdict (score x W (i 0) (i 1))

/-- The marked weight matrix. -/
def marks (W : FVec Ideal ⟨2, ![4096, 2048]⟩ .f32) : FVec Ideal ⟨2, ![4096, 2048]⟩ .bf16 :=
  fun i => mark (W i)

end Cert.Spec

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.PayloadsAtIndex.lean ====
/-
  The kernel's four stored values, read at one index of their block, at the ideal values.

  The binarising kernel stores, for a weight w, the bit of "w is above one half" widened to a 32-bit integer and
  converted to a float as a signed integer; a one-bit word widened by zeros is non-negative, so its signed reading
  is its unsigned one, and the stored value is the specification's mark of w. The conjunction kernel stores the
  zero splat when it starts a row block's accumulation; at every step it stores the accumulator plus the matrix
  product of (1 − x) with the marked weights, which at entry (p, q) is the sum over the 256 contraction
  coordinates k of (1 − x[p,k]) · w[k,q]; and at the last step it stores the specification's verdict on the
  accumulator. A change of float format and a reshape to the same shape are the identity.
-/
import proofs.«100908_j52493090291974_2_alg».proof.Proof.Gen.KernelIdeal.Skeleton
import proofs.«100908_j52493090291974_2_alg».proof.Proof.Spec
import proofs.«100908_j52493090291974_2_alg».proof.Proof.LibPlainMatmul
import Idealize.ShloMosaic.Lib.ValueIdx
import Idealize.ShloMosaic.Lib.Pipeline.Value
import Idealize.ShloMosaic.PureOps.Ideal.Laws

noncomputable section

open scoped BigOperators

namespace Cert.KernelValue

open Cert.KernelIdeal Cert.KernelIdeal.Gen Idealize.ShloMosaic Idealize.ShloMosaic.ValueIdx

variable [Cert.KernelIdeal.Facts]

/-- A one-bit word widened by zeros to 32 bits and read as a signed integer is the bit read as a natural number:
    both are 0 for the bit 0 and 1 for the bit 1. So the two conversions to a float agree on it. -/
theorem sitofp_setWidth_bit (b : BitVec 1) :
    FloatOps.sitofp (F := Ideal) .f32 (b.setWidth 32) = FloatOps.uitofp (F := Ideal) .f32 b := by
  have h : (b.setWidth 32).toInt = (b.toNat : ℤ) := by
    rcases BitVec.eq_zero_or_eq_one b with h | h <;> subst h <;> decide
  show (((b.setWidth 32).toInt : ℝ) : EReal) = ((b.toNat : ℝ) : EReal)
  rw [h, Int.cast_natCast]

/-- The binarising kernel's stored value at (p, q) is the mark of the weight there: the format change is the
    identity, and the signed conversion of the widened comparison bit is the unsigned conversion of the bit. -/
theorem mark_at (v0 : Vec Ideal S1024x1024 .f32) (p q : Fin 1024) :
    k0_pay1 (F := Ideal) v0 (ix2 p q) = Cert.Spec.mark (v0 (ix2 p q)) := by
  unfold k0_pay1 Cert.Spec.mark
  exact sitofp_setWidth_bit _

/-- The value the conjunction kernel stores when it starts an accumulation is zero everywhere: the splat of the
    zero word, reshaped to its own shape. -/
theorem zero_at (p : Fin 2048) (q : Fin 1024) : k1_pay1 (F := Ideal) (ix2 p q) = 0 := by
  unfold k1_pay1
  refine (congrFun (shapeCast_self _ _) (ix2 p q)).trans ?_
  exact Ideal.ofBits_zero_f32

/-- One accumulation step at (p, q): the accumulator's entry plus the sum over the contraction coordinate k of
    (1 − x[p,k]) · w[k,q]. The two reshapes are to the same shape, the matrix product accumulates into the zero
    splat, and the narrowing of its left operand is the identity. -/
theorem step_at (x : Vec Ideal S2048x256 .f32) (a : Vec Ideal S2048x1024 .f32) (w : Vec Ideal S256x1024 .bf16)
    (p : Fin 2048) (q : Fin 1024) :
    k1_pay2 (F := Ideal) x a w (ix2 p q)
      = a (ix2 p q) + ∑ k : Fin 256, (FloatOps.ofBits (F := Ideal) .f32 0x3F800000#32 - x (ix2 p k)) * w (ix2 k q) := by
  unfold k1_pay2
  refine (congrFun (shapeCast_self _ _) (ix2 p q)).trans ?_
  refine (addf_apply _ _ _).trans ?_
  refine congrArg (fun s => a (ix2 p q) + s) ?_
  refine (congrArg (fun r => matmul dot_S2048x256_S256x1024_S2048x1024_1_0_0_1_n_n none
    (truncf .bf16 (subf (broadcast S2048x256 (FloatOps.ofBits (F := Ideal) .f32 0x3F800000#32)) x) bitsLt_bf16_f32)
    r (constant (F := Ideal) S2048x1024 .f32 0x00000000#32) (ix2 p q)) (shapeCast_self w _)).trans ?_
  refine (Idealize.ShloMosaic.PlainMatmul.matmul_zero_apply (φ₁ := .bf16) (φ₂ := .bf16)
    dot_S2048x256_S256x1024_S2048x1024_1_0_0_1_n_n rfl rfl rfl rfl rfl rfl none
    (truncf .bf16 (subf (broadcast S2048x256 (FloatOps.ofBits (F := Ideal) .f32 0x3F800000#32)) x) bitsLt_bf16_f32)
    w p q).trans ?_
  exact Finset.sum_congr rfl fun k _ => rfl

/-- The value the conjunction kernel stores at its last step is, at (p, q), the verdict on the accumulator's
    entry: the select on "the entry is positive" between the zero word and the one word. -/
theorem verdict_at (a : Vec Ideal S2048x1024 .f32) (p : Fin 2048) (q : Fin 1024) :
    k1_pay3 (F := Ideal) a (ix2 p q) = Cert.Spec.verdict (a (ix2 p q)) := by
  unfold k1_pay3 Cert.Spec.verdict
  rfl

end Cert.KernelValue

end
-- ==== Proof.MarkedArray.lean ====
/-
  What the thresholding region leaves in the narrowed matrix, at the ideal values: the marks of the weights.
  The region's grid is 4 × 2 and its two windows move together: at a point the output block sits where the input
  block sits, so what the point writes back — the marks of the input block — is the point's block of the marks of the
  whole weight matrix; the eight blocks tile the 4096 × 2048 matrix (the block holding row i and column j is the one
  at position (i / 1024, j / 1024)), so the matrix ends holding the marks of the weights everywhere.
-/
import proofs.«100908_j52493090291974_2_alg».proof.Proof.BinarizeIdeal
import proofs.«100908_j52493090291974_2_alg».proof.Proof.PayloadsAtIndex
import proofs.«100908_j52493090291974_2_alg».proof.Proof.Spec
import Idealize.ShloMosaic.Lib.Pipeline.Value

set_option maxRecDepth 16384

noncomputable section

open scoped BigOperators

namespace Cert.KernelValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The thresholding payload at any index of its block: the mark of the entry there. -/
theorem mark_at' (v0 : Vec Ideal S1024x1024 .f32) (j : S1024x1024.Idx) : k0_pay1 (F := Ideal) v0 j = Cert.Spec.mark (v0 j) :=
  (congrArg (k0_pay1 (F := Ideal) v0) (eq_ix2 j)).trans
    ((mark_at v0 (j 0) (j 1)).trans (congrArg (fun i => Cert.Spec.mark (v0 i)) (eq_ix2 j).symm))

/-- The first region's two index maps, decided over its eight points: the windows move together, inside a 4 × 2 box. -/
theorem idx0_facts : ∀ t : Fin cfg0.N, win0_0.index t (0 : Fin 2) = win0_1.index t (0 : Fin 2)
    ∧ win0_0.index t (1 : Fin 2) = win0_1.index t (1 : Fin 2)
    ∧ win0_1.index t (0 : Fin 2) ≤ 3 ∧ win0_1.index t (1 : Fin 2) ≤ 1 :=
  (by decide +kernel : ∀ t : Fin grid0.N, _)

/-- Every block position of the box is some point's. -/
theorem idx0_onto : ∀ (q0 : Fin 4) (q1 : Fin 2), ∃ t : Fin cfg0.N, win0_1.index t = ![q0.val, q1.val] :=
  (by decide +kernel : ∀ (q0 : Fin 4) (q1 : Fin 2), ∃ t : Fin grid0.N, win0_1.index t = ![q0.val, q1.val])

/-- What point `t` writes back is its block of the marks of the weight matrix as the region finds it. -/
theorem flushed0_eq (c : Dev nD) (t : Fin cfg0.N) :
    (dat0 (F := Ideal) V c).flushed 1 t = ((cfg0.win 1).blk t).view.read (Elt Ideal) (Cert.Spec.marks (V c main_arg1)) := by
  show (cfg0.win 1).cut (grid0.coords t) ((dat0 V c).after 1 t) = _
  rw [after0_1]
  unfold out0_1
  rw [View.canon_unit_zero zeros2]
  simp only [View.ld_unit_zero (S := S1024x1024) zeros2]
  obtain ⟨e0, e1, -, -⟩ := idx0_facts t
  funext j
  refine (mark_at' _ j).trans ?_
  show Cert.Spec.mark (V c main_arg1 (((cfg0.win 0).blk t).view.emb j)) = Cert.Spec.mark (V c main_arg1 (((cfg0.win 1).blk t).view.emb j))
  refine congrArg (fun i => Cert.Spec.mark (V c main_arg1 i)) ?_
  funext a; apply Fin.ext
  match a with
  | ⟨0, _⟩ => show win0_0.index t (0 : Fin 2) * 1024 + 1 * (j 0).val = win0_1.index t (0 : Fin 2) * 1024 + 1 * (j 0).val; omega
  | ⟨1, _⟩ => show win0_0.index t (1 : Fin 2) * 1024 + 1 * (j 1).val = win0_1.index t (1 : Fin 2) * 1024 + 1 * (j 1).val; omega

/-- An index of the matrix is in point `t`'s block iff each coordinate is in the block's range on its axis. -/
theorem mem_blk0 (t : Fin cfg0.N) (i : S4096x2048.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v0).slice (win0_1.rect t)).set ↔ _
  rw [View.set_slice_whole, Rect.mem_set_unit]
  exact Iff.rfl

/-- Every index of the matrix is in the block some point writes back. -/
theorem cover0 (i : S4096x2048.Idx) : ∃ t : Fin cfg0.N, (cfg0.win 1).flush t = true ∧ i ∈ ((cfg0.win 1).blk t).view.set := by
  have hi0 : (i 0).val < 4096 := (i 0).isLt
  have hi1 : (i 1).val < 2048 := (i 1).isLt
  obtain ⟨t, ht⟩ := idx0_onto ⟨(i 0).val / 1024, by omega⟩ ⟨(i 1).val / 1024, by omega⟩
  have q0 : win0_1.index t (0 : Fin 2) = (i 0).val / 1024 := congrFun ht 0
  have q1 : win0_1.index t (1 : Fin 2) = (i 1).val / 1024 := congrFun ht 1
  refine ⟨t, flush0_1 t, ?_⟩
  rw [mem_blk0]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1024 ≤ (i 1).val ∧ (i 1).val < win0_1.index t (1 : Fin 2) * 1024 + 1024; omega

/-- THE MARKED MATRIX after the first region: the marks of the weight matrix as the region found it. -/
theorem marked_final (c : Dev nD) : (dat0 (F := Ideal) V c).arrAt 1 cfg0.N = Cert.Spec.marks (V c main_arg1) :=
  (dat0 V c).arrAt_eq_of_cover 1 _ (fun t _ => flushed0_eq V c t) cover0

end Cert.KernelValue

end
-- ==== Proof.LibFinSums.lean ====
/-
  Finite sums re-indexed.

  Four facts about sums in a commutative monoid, none of which needs more than commutativity and associativity of the
  addition (so they hold on the extended reals at the infinities too): a sum over `m · n` consecutive naturals is the
  sum over `m` blocks of `n`; a sum over the indices of a vector is the sum over its coordinate; a sum over the
  indices of an [a, 1, b] array is the double sum over its first and last coordinates; and three nested finite sums
  may be read in the opposite nesting order.
-/
import Idealize.ShloMosaic.PureOps.Ideal
import Idealize.ShloMosaic.Lib.ValueIdx

namespace Idealize.ShloMosaic.FinSums

open Idealize.ShloMosaic Idealize.ShloMosaic.ValueIdx

/-- A sum over `N = m · n` consecutive naturals is the sum over `m` blocks of `n`. -/
theorem sum_blocks {M : Type*} [AddCommMonoid M] (m n N : ℕ) (h : N = m * n) (f : ℕ → M) :
    ∑ r : Fin N, f r.val = ∑ i : Fin m, ∑ j : Fin n, f (i.val * n + j.val) := by
  subst h
  rw [← finProdFinEquiv.sum_comp, Fintype.sum_prod_type]
  refine Finset.sum_congr rfl fun i _ => Finset.sum_congr rfl fun j _ => ?_
  refine congrArg f ?_
  show j.val + n * i.val = i.val * n + j.val
  rw [Nat.mul_comm, Nat.add_comm]

/-- A sum over the indices of a vector is the sum over its one coordinate. -/
theorem sum_rank1 {M : Type*} [AddCommMonoid M] {n : ℕ} (f : (⟨1, ![n]⟩ : Shape).Idx → M) :
    ∑ j, f j = ∑ r : Fin n, f (ix1 r) :=
  Fintype.sum_equiv ⟨fun j => (j 0 : Fin n), ix1, fun j => (eq_ix1 j).symm, fun _ => rfl⟩ f (fun r => f (ix1 r))
    fun j => congrArg f (eq_ix1 j)

/-- A sum over the indices of an [a, 1, b] array is the double sum over its first and last coordinates. -/
theorem sum_a1b {M : Type*} [AddCommMonoid M] {a b : ℕ} (f : (⟨3, ![a, 1, b]⟩ : Shape).Idx → M) :
    ∑ j, f j = ∑ i : Fin a, ∑ k : Fin b, f (ix3 i (0 : Fin 1) k) := by
  have hj : ∀ j : (⟨3, ![a, 1, b]⟩ : Shape).Idx, j = ix3 (j 0 : Fin a) (0 : Fin 1) (j 2 : Fin b) := fun j =>
    funext fun ax => by
      match ax with
      | ⟨0, _⟩ => rfl
      | ⟨1, _⟩ => exact Subsingleton.elim (α := Fin 1) _ _
      | ⟨2, _⟩ => rfl
  rw [← Fintype.sum_prod_type' (f := fun (i : Fin a) (k : Fin b) => f (ix3 i (0 : Fin 1) k))]
  exact Fintype.sum_equiv ⟨fun j => ((j 0 : Fin a), (j 2 : Fin b)), fun p => ix3 p.1 (0 : Fin 1) p.2,
      fun j => (hj j).symm, fun _ => rfl⟩ f (fun p => f (ix3 p.1 (0 : Fin 1) p.2)) fun j => congrArg f (hj j)

/-- Three nested finite sums read in the opposite nesting order. -/
theorem sum_rotate {M : Type*} [AddCommMonoid M] {A B C : Type*} [Fintype A] [Fintype B] [Fintype C]
    (g : C → B → A → M) : ∑ a : A, ∑ b : B, ∑ c : C, g c b a = ∑ c : C, ∑ b : B, ∑ a : A, g c b a :=
  calc ∑ a : A, ∑ b : B, ∑ c : C, g c b a
      = ∑ b : B, ∑ a : A, ∑ c : C, g c b a := Finset.sum_comm
    _ = ∑ b : B, ∑ c : C, ∑ a : A, g c b a := Finset.sum_congr rfl fun _ _ => Finset.sum_comm
    _ = ∑ c : C, ∑ b : B, ∑ a : A, g c b a := Finset.sum_comm

end Idealize.ShloMosaic.FinSums
-- ==== Proof.ScoreArray.lean ====
/-
  What the accumulating region leaves in the result array, at the ideal values.
  The region's grid is 4 × 2 × 16 with the last axis fastest, so point t sits at row block t / 32, column block
  (t / 16) mod 2 and contraction block t mod 16. At the point the feature window's block is rows [2048·(t/32), +2048)
  and columns [256·(t mod 16), +256) of the feature matrix, and the marked window's block is rows [256·(t mod 16), +256)
  and columns [1024·((t/16) mod 2), +1024) of the marked matrix. The accumulator starts each run of sixteen points at
  zero and gains one block product per point, so after the point with contraction block κ it holds, at (p, q), the sum
  over the blocks b ≤ κ and k' < 256 of (1 − x[R+p, 256 b + k']) · marked[256 b + k', C+q]. After the sixteenth that is the
  whole sum over k < 4096 (a sum over 4096 consecutive naturals is sixteen blocks of 256, by commutativity and
  associativity alone), the output block is the verdict on it, and the eight output blocks written back tile the
  8192 × 2048 result.
-/
import proofs.«100908_j52493090291974_2_alg».proof.Proof.ConjIdeal
import proofs.«100908_j52493090291974_2_alg».proof.Proof.PayloadsAtIndex
import proofs.«100908_j52493090291974_2_alg».proof.Proof.Spec
import proofs.«100908_j52493090291974_2_alg».proof.Proof.LibFinSums
import Idealize.ShloMosaic.Lib.Pipeline.Value

set_option maxRecDepth 16384

noncomputable section

open scoped BigOperators

namespace Cert.KernelValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## The matrices read at natural-number coordinates -/

section Math

variable (X : FVec Ideal ⟨2, ![8192, 4096]⟩ .f32) (B : FVec Ideal ⟨2, ![4096, 2048]⟩ .bf16)

/-- The feature matrix at natural coordinates (zero outside, never read there). -/
def atX (r k : ℕ) : Ideal .f32 := if h : r < 8192 ∧ k < 4096 then X (ix2 ⟨r, h.1⟩ ⟨k, h.2⟩) else 0
/-- The marked matrix at natural coordinates (zero outside, never read there). -/
def atB (k j : ℕ) : Ideal .f32 := if h : k < 4096 ∧ j < 2048 then B (ix2 ⟨k, h.1⟩ ⟨j, h.2⟩) else 0

theorem atX_eq (r : Fin 8192) (k : Fin 4096) : atX X r.val k.val = X (ix2 r k) := by
  unfold atX; rw [dif_pos ⟨r.isLt, k.isLt⟩]
theorem atB_eq (k : Fin 4096) (j : Fin 2048) : atB B k.val j.val = B (ix2 k j) := by
  unfold atB; rw [dif_pos ⟨k.isLt, j.isLt⟩]

/-- One summand of a score: (1 − x[r,k]) · marked[k,j]. -/
def term (r j k : ℕ) : Ideal .f32 := (FloatOps.ofBits (F := Ideal) .f32 0x3F800000#32 - atX X r k) * atB B k j

/-- The result as a function of the feature matrix and the MARKED matrix. -/
def G1 : FVec Ideal ⟨2, ![8192, 2048]⟩ .f32 :=
  fun i => Cert.Spec.verdict (∑ k : Fin 4096, (FloatOps.ofBits (F := Ideal) .f32 0x3F800000#32 - X (ix2 (i 0) k)) * B (ix2 k (i 1)))

/-- A score is sixteen blocks of 256 summands. -/
theorem score_blocks (r : Fin 8192) (j : Fin 2048) :
    ∑ k : Fin 4096, (FloatOps.ofBits (F := Ideal) .f32 0x3F800000#32 - X (ix2 r k)) * B (ix2 k j)
      = ∑ b ∈ Finset.range 16, ∑ k' : Fin 256, term X B r.val j.val (b * 256 + k'.val) := by
  have h1 : ∀ k : Fin 4096, (FloatOps.ofBits (F := Ideal) .f32 0x3F800000#32 - X (ix2 r k)) * B (ix2 k j) = term X B r.val j.val k.val :=
    fun k => by unfold term; rw [atX_eq, atB_eq]
  rw [Finset.sum_congr rfl (fun k _ => h1 k), Idealize.ShloMosaic.FinSums.sum_blocks 16 256 4096 (by norm_num) (term X B r.val j.val),
    Finset.sum_range (fun b => ∑ k' : Fin 256, term X B r.val j.val (b * 256 + k'.val))]

/-- One accumulation step in closed form: for blocks that are the matrices' at row offset `R`, column offset `C` and
    contraction block `κ`, the step adds that block's 256 summands. -/
theorem step_closed [Cert.KernelIdeal.Facts] (x : Vec Ideal S2048x256 .f32) (a : Vec Ideal S2048x1024 .f32) (w : Vec Ideal S256x1024 .bf16) (R C κ : ℕ)
    (hx : ∀ (p : Fin 2048) (k' : Fin 256), x (ix2 p k') = atX X (R + p.val) (κ * 256 + k'.val))
    (hw : ∀ (k' : Fin 256) (q : Fin 1024), w (ix2 k' q) = atB B (κ * 256 + k'.val) (C + q.val))
    (p : Fin 2048) (q : Fin 1024) :
    k1_pay2 (F := Ideal) x a w (ix2 p q) = a (ix2 p q) + ∑ k' : Fin 256, term X B (R + p.val) (C + q.val) (κ * 256 + k'.val) := by
  refine (step_at x a w p q).trans ?_
  refine congrArg (fun s => a (ix2 p q) + s) ?_
  refine Finset.sum_congr rfl fun k' _ => ?_
  unfold term; rw [hx, hw]

end Math

/-! ## The region's blocks -/

variable (V : (c : Dev nD) → (b : Ref sig .tc) → Buf (Elt Ideal) ((c : Thread nD τ).loc b))

theorem zeros2' : (![0, 0] : Fin 2 → Nat) = fun _ => 0 := funext fun a => by fin_cases a <;> rfl

/-- The second region's three index maps in closed form, decided over its 128 points. -/
theorem idx1_facts : ∀ t : Fin cfg1.N, win1_0.index t (0 : Fin 2) = t.val / 32 ∧ win1_0.index t (1 : Fin 2) = t.val % 16
    ∧ win1_1.index t (0 : Fin 2) = t.val % 16 ∧ win1_1.index t (1 : Fin 2) = t.val / 16 % 2
    ∧ win1_2.index t (0 : Fin 2) = t.val / 32 ∧ win1_2.index t (1 : Fin 2) = t.val / 16 % 2 :=
  (by decide +kernel : ∀ t : Fin grid1.N, _)

/-- Every output block position is the last point's of some run of sixteen. -/
theorem idx1_onto : ∀ (q0 : Fin 4) (q1 : Fin 2), ∃ t : Fin cfg1.N, t.val % 16 = 15 ∧ win1_2.index t = ![q0.val, q1.val] :=
  (by decide +kernel : ∀ (q0 : Fin 4) (q1 : Fin 2), ∃ t : Fin grid1.N, t.val % 16 = 15 ∧ win1_2.index t = ![q0.val, q1.val])

theorem lt128 (t : Fin cfg1.N) : t.val < 128 := lt_of_lt_of_eq t.isLt (show cfg1.N = 128 from N_1)

/-- The feature window's block at point `t`, entry by entry. -/
theorem xblk_at (c : Dev nD) (t : Fin cfg1.N) (p : Fin 2048) (k' : Fin 256) :
    (iblk1 V c 0 t : Vec Ideal S2048x256 .f32) (ix2 p k') = atX (V c main_arg0) (t.val / 32 * 2048 + p.val) (t.val % 16 * 256 + k'.val) := by
  obtain ⟨e0, e1, -, -, -, -⟩ := idx1_facts t
  have ht := lt128 t
  have hp := p.isLt; have hk := k'.isLt
  unfold atX
  rw [dif_pos ⟨by omega, by omega⟩]
  show V c main_arg0 (((cfg1.win 0).blk t).view.emb (ix2 p k')) = V c main_arg0 _
  refine congrArg (V c main_arg0) ?_
  funext a; apply Fin.ext
  match a with
  | ⟨0, _⟩ => show win1_0.index t (0 : Fin 2) * 2048 + 1 * p.val = t.val / 32 * 2048 + p.val; omega
  | ⟨1, _⟩ => show win1_0.index t (1 : Fin 2) * 256 + 1 * k'.val = t.val % 16 * 256 + k'.val; omega

/-- The marked window's block at point `t`, entry by entry. -/
theorem wblk_at (c : Dev nD) (t : Fin cfg1.N) (k' : Fin 256) (q : Fin 1024) :
    (iblk1 V c 1 t : Vec Ideal S256x1024 .bf16) (ix2 k' q) = atB (V c main_v0) (t.val % 16 * 256 + k'.val) (t.val / 16 % 2 * 1024 + q.val) := by
  obtain ⟨-, -, e2, e3, -, -⟩ := idx1_facts t
  have ht := lt128 t
  have hq := q.isLt; have hk := k'.isLt
  unfold atB
  rw [dif_pos ⟨by omega, by omega⟩]
  show V c main_v0 (((cfg1.win 1).blk t).view.emb (ix2 k' q)) = V c main_v0 _
  refine congrArg (V c main_v0) ?_
  funext a; apply Fin.ext
  match a with
  | ⟨0, _⟩ => show win1_1.index t (0 : Fin 2) * 256 + 1 * k'.val = t.val % 16 * 256 + k'.val; omega
  | ⟨1, _⟩ => show win1_1.index t (1 : Fin 2) * 1024 + 1 * q.val = t.val / 16 % 2 * 1024 + q.val; omega

/-! ## The accumulator in closed form -/

theorem acc1_zero (c : Dev nD) (hn : 0 < cfg1.N) :
    acc1 (F := Ideal) V c 0 hn = k1_pay2 (iblk1 V c 0 ⟨0, hn⟩) (k1_pay1 (F := Ideal)) (iblk1 V c 1 ⟨0, hn⟩) := rfl
theorem acc1_reset (c : Dev nD) (n : ℕ) (hn : n + 1 < cfg1.N) (h : (n + 1) % 16 = 0) :
    acc1 (F := Ideal) V c (n + 1) hn = k1_pay2 (iblk1 V c 0 ⟨n + 1, hn⟩) (k1_pay1 (F := Ideal)) (iblk1 V c 1 ⟨n + 1, hn⟩) := by
  rw [acc1]; exact if_pos h
theorem acc1_add (c : Dev nD) (n : ℕ) (hn : n + 1 < cfg1.N) (h : ¬(n + 1) % 16 = 0) :
    acc1 (F := Ideal) V c (n + 1) hn = k1_pay2 (iblk1 V c 0 ⟨n + 1, hn⟩) (acc1 V c n (Nat.lt_of_succ_lt hn)) (iblk1 V c 1 ⟨n + 1, hn⟩) := by
  rw [acc1]; exact if_neg h

/-- After the point at position `n` the accumulator holds, at (p, q), the summands of the contraction blocks up to the
    point's own. -/
theorem acc_closed (c : Dev nD) : ∀ (n : ℕ) (hn : n < cfg1.N) (p : Fin 2048) (q : Fin 1024),
    acc1 (F := Ideal) V c n hn (ix2 p q)
      = ∑ b ∈ Finset.range (n % 16 + 1), ∑ k' : Fin 256,
          term (V c main_arg0) (V c main_v0) (n / 32 * 2048 + p.val) (n / 16 % 2 * 1024 + q.val) (b * 256 + k'.val)
  | 0, hn, p, q => by
    rw [acc1_zero]
    refine (step_closed (V c main_arg0) (V c main_v0) _ _ _ (0 / 32 * 2048) (0 / 16 % 2 * 1024) (0 % 16)
      (fun p k' => xblk_at V c ⟨0, hn⟩ p k') (fun k' q => wblk_at V c ⟨0, hn⟩ k' q) p q).trans ?_
    rw [zero_at, zero_add, show 0 % 16 + 1 = 1 from rfl, Finset.sum_range_one]
  | n + 1, hn, p, q => by
    have hN : n + 1 < 128 := lt_of_lt_of_eq hn (show cfg1.N = 128 from N_1)
    by_cases h : (n + 1) % 16 = 0
    · rw [acc1_reset V c n hn h]
      refine (step_closed (V c main_arg0) (V c main_v0) _ _ _ ((n + 1) / 32 * 2048) ((n + 1) / 16 % 2 * 1024) ((n + 1) % 16)
        (fun p k' => xblk_at V c ⟨n + 1, hn⟩ p k') (fun k' q => wblk_at V c ⟨n + 1, hn⟩ k' q) p q).trans ?_
      rw [zero_at, zero_add, h, Finset.sum_range_one]
    · rw [acc1_add V c n hn h]
      refine (step_closed (V c main_arg0) (V c main_v0) _ _ _ ((n + 1) / 32 * 2048) ((n + 1) / 16 % 2 * 1024) ((n + 1) % 16)
        (fun p k' => xblk_at V c ⟨n + 1, hn⟩ p k') (fun k' q => wblk_at V c ⟨n + 1, hn⟩ k' q) p q).trans ?_
      rw [acc_closed c n (Nat.lt_of_succ_lt hn) p q]
      have e1 : (n + 1) / 32 = n / 32 := by omega
      have e2 : (n + 1) / 16 % 2 = n / 16 % 2 := by omega
      have e3 : (n + 1) % 16 = n % 16 + 1 := by omega
      rw [e1, e2, e3, Finset.sum_range_succ (fun b => ∑ k' : Fin 256,
          term (V c main_arg0) (V c main_v0) (n / 32 * 2048 + p.val) (n / 16 % 2 * 1024 + q.val) (b * 256 + k'.val)) (n % 16 + 1)]

/-! ## From blocks to the result array -/

/-- What a point that ends a run of sixteen writes back is its block of the result function of the feature matrix and
    the marked matrix as the region finds them. -/
theorem flushed1_eq (c : Dev nD) (t : Fin cfg1.N) (hf : (cfg1.win 2).flush t = true) :
    (dat1 (F := Ideal) V c).flushed 2 t = ((cfg1.win 2).blk t).view.read (Elt Ideal) (G1 (V c main_arg0) (V c main_v0)) := by
  have hlast : t.val % 16 = 15 := (flush1_2 t).mp hf
  have ht := lt128 t
  obtain ⟨-, -, -, -, e4, e5⟩ := idx1_facts t
  show (cfg1.win 2).cut (grid1.coords t) ((dat1 V c).after 2 t) = _
  rw [after1_2]
  unfold out1_2
  funext j
  have hj0 : (j 0).val < 2048 := (j 0).isLt
  have hj1 : (j 1).val < 1024 := (j 1).isLt
  show k1_pay3 (F := Ideal) (acc1 V c t.val t.isLt) j = G1 (V c main_arg0) (V c main_v0) (((cfg1.win 2).blk t).view.emb j)
  refine (congrArg (k1_pay3 (F := Ideal) (acc1 V c t.val t.isLt)) (eq_ix2 j)).trans ?_
  refine (verdict_at _ (j 0) (j 1)).trans ?_
  rw [acc_closed V c t.val t.isLt (j 0) (j 1), hlast]
  unfold G1
  refine congrArg Cert.Spec.verdict ?_
  have hr : ((((cfg1.win 2).blk t).view.emb j) 0).val = t.val / 32 * 2048 + (j 0).val := by
    show win1_2.index t (0 : Fin 2) * 2048 + 1 * (j 0).val = _; omega
  have hc : ((((cfg1.win 2).blk t).view.emb j) 1).val = t.val / 16 % 2 * 1024 + (j 1).val := by
    show win1_2.index t (1 : Fin 2) * 1024 + 1 * (j 1).val = _; omega
  rw [score_blocks (V c main_arg0) (V c main_v0) ((((cfg1.win 2).blk t).view.emb j) 0) ((((cfg1.win 2).blk t).view.emb j) 1), hr, hc]

/-- An index of the result is in point `t`'s block iff each coordinate is in the block's range on its axis. -/
theorem mem_blk1 (t : Fin cfg1.N) (i : S8192x2048.Idx) :
    i ∈ ((cfg1.win 2).blk t).view.set ↔ ∀ a : Fin 2, win1_2.index t a * S2048x1024.size a ≤ (i a).val ∧ (i a).val < win1_2.index t a * S2048x1024.size a + S2048x1024.size a := by
  show i ∈ ((View.whole main_v1).slice (win1_2.rect t)).set ↔ _
  rw [View.set_slice_whole, Rect.mem_set_unit]
  exact Iff.rfl

/-- Every index of the result is in the block some point writes back. -/
theorem cover1 (i : S8192x2048.Idx) : ∃ t : Fin cfg1.N, (cfg1.win 2).flush t = true ∧ i ∈ ((cfg1.win 2).blk t).view.set := by
  have hi0 : (i 0).val < 8192 := (i 0).isLt
  have hi1 : (i 1).val < 2048 := (i 1).isLt
  obtain ⟨t, hl, ht⟩ := idx1_onto ⟨(i 0).val / 2048, by omega⟩ ⟨(i 1).val / 1024, by omega⟩
  have q0 : win1_2.index t (0 : Fin 2) = (i 0).val / 2048 := congrFun ht 0
  have q1 : win1_2.index t (1 : Fin 2) = (i 1).val / 1024 := congrFun ht 1
  refine ⟨t, (flush1_2 t).mpr hl, ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 1024 ≤ (i 1).val ∧ (i 1).val < win1_2.index t (1 : Fin 2) * 1024 + 1024; omega

/-- THE RESULT ARRAY after the second region: the verdicts on the scores of the feature matrix against the marked
    matrix, both as the region found them. -/
theorem result_final (c : Dev nD) : (dat1 (F := Ideal) V c).arrAt 2 cfg1.N = G1 (V c main_arg0) (V c main_v0) :=
  (dat1 V c).arrAt_eq_of_cover 2 _ (fun t hf => flushed1_eq V c t hf) cover1

end Cert.KernelValue

end
-- ==== Proof.KernelIsSpec.lean ====
/-
  The idealized kernel computes the specified function.
  The second region leaves in the result array the verdicts on the scores of the feature matrix against the marked
  matrix, both as it found them; it found the feature matrix as launched (the first region does not touch it) and the
  marked matrix as the first region left it, which is the marks of the weight matrix as launched. The marks of a
  weight are by definition what the specification multiplies by, so the result is the specified function of the two
  argument arrays.
-/
import proofs.«100908_j52493090291974_2_alg».proof.Proof.RunIdeal
import proofs.«100908_j52493090291974_2_alg».proof.Proof.MarkedArray
import proofs.«100908_j52493090291974_2_alg».proof.Proof.ScoreArray

set_option maxRecDepth 16384

noncomputable section

open scoped BigOperators

namespace Cert.KernelValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-- The result function of the feature matrix and the marks of the weights is the specified function. -/
theorem G1_marks (X : FVec Ideal ⟨2, ![8192, 4096]⟩ .f32) (W : FVec Ideal ⟨2, ![4096, 2048]⟩ .f32) :
    G1 X (Cert.Spec.marks W) = Cert.Spec.G X W := rfl

variable (m : (ℓ : Loc nD τ sig) → Buf (Elt Ideal) ℓ)

/-- The result array after both regions, as a function of the launch memory. -/
theorem result_is_spec (c : Dev nD) :
    (dat1 (F := Ideal) (E1 m) c).arrAt 2 cfg1.N
      = Cert.Spec.G (m ((c.tc : Thread nD τ).loc main_arg0)) (m ((c.tc : Thread nD τ).loc main_arg1)) := by
  refine (result_final (E1 m) c).trans ?_
  rw [E1_main_arg0 m c, E1_main_v0 m c, marked_final (E0 m) c]
  exact G1_marks _ _

/-- THE KERNEL'S RUN, READ: every weakly fair execution terminates with the result array at the specified function of
    the argument arrays and the argument arrays unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c => ⟨(h c).1.trans (result_is_spec m c), (h c).2⟩) (run_main m ρ)

end Cert.KernelValue

end
-- ==== Proof.RefIsSpec.lean ====
/-
  The reference computes the specified function: its result, read one operation at a time, is at every index the
  verdict on the row's score against the column.
-/
import proofs.«100908_j52493090291974_2_alg».proof.Proof.Gen.ReferenceIdeal.Read
import proofs.«100908_j52493090291974_2_alg».proof.Proof.Spec

noncomputable section

open scoped BigOperators

namespace Cert.RefValue

open Idealize.ShloMosaic Idealize.ShloMosaic.ValueIdx Cert.ReferenceIdeal Cert.ReferenceIdeal.Read

/-- At the result index (r, j) the left operand of the contraction is read at row `r`, column `k`. -/
theorem lidx_eq (r : Fin 8192) (j : Fin 2048) (k : Fin 4096) :
    lidx_main_v5 (ix2 r j) k = (ix2 r k : S8192x4096.Idx) :=
  funext fun a => Fin.ext (by match a with | ⟨0, _⟩ => rfl | ⟨1, _⟩ => rfl)

/-- At the result index (r, j) the right operand of the contraction is read at row `k`, column `j`. -/
theorem ridx_eq (r : Fin 8192) (j : Fin 2048) (k : Fin 4096) :
    ridx_main_v5 (ix2 r j) k = (ix2 k j : S4096x2048.Idx) :=
  funext fun a => Fin.ext (by match a with | ⟨0, _⟩ => rfl | ⟨1, _⟩ => rfl)

/-- The reference's result is the specified array: at every index (r, j) it is the select, on "the contraction is
    positive", between the zero word and the one word, and the contraction is the sum over `k` of (1 − x[r,k])
    times the converted bit of "W[k,j] is above one half". -/
theorem ref_eq (x0 : FVec Ideal S8192x4096 .f32) (x1 : FVec Ideal S4096x2048 .f32) :
    val_main_v8 (F := Ideal) x0 x1 = Cert.Spec.G x0 x1 := by
  funext i
  obtain ⟨r, j, rfl⟩ : ∃ (r : Fin 8192) (j : Fin 2048), i = ix2 r j := ⟨i 0, i 1, eq_ix2 i⟩
  rw [val_main_v8_apply, val_main_v7_apply, val_main_v5_apply, val_main_v6_apply, val_main_cst_1_apply,
    val_main_call0_v0_apply, val_main_cst_2_apply, val_main_call0_v1_apply, val_main_cst_3_apply]
  show _ = Cert.Spec.verdict (Cert.Spec.score x0 x1 r j)
  unfold Cert.Spec.verdict Cert.Spec.score
  refine congrArg (fun s => Scalar.select (FloatOps.cmpf (F := Ideal) .ogt s (FloatOps.ofBits (F := Ideal) .f32 0x00000000#32))
    (FloatOps.ofBits (F := Ideal) .f32 0x00000000#32) (FloatOps.ofBits (F := Ideal) .f32 0x3F800000#32)) ?_
  refine Finset.sum_congr rfl fun k _ => ?_
  rw [lidx_eq, ridx_eq, val_main_v4_apply, val_main_v3_apply, val_main_cst_0_apply, val_main_v2_apply,
    val_main_v1_apply, val_main_v0_apply, val_main_cst_apply]
  rfl

end Cert.RefValue

end
-- ==== Proof.lean ====
/-
  Both programs compute, on the extended reals, the same function of a feature matrix x (8192 × 4096) and a weight
  matrix W (4096 × 2048): the result at (r, j) is 0 where the score Σₖ (1 − x[r,k]) · [W[k,j] > 1/2] is positive and 1
  elsewhere (Proof/Spec.lean).

  The kernel is two launches in a row. The first narrows W to its 0/1 marks block by block over a 4 × 2 grid; the
  second, over a 4 × 2 × 16 grid, keeps a 2048 × 1024 accumulator between points, resets it at the first contraction
  block, adds the block product (1 − x-block) · marks-block at every point, and at the sixteenth stores the verdict
  on the accumulator into the result. Its frame — every weakly fair execution terminates, nothing faults, the argument
  arrays end unchanged — is proved once for any float instance (Proof/Binarize*, Proof/Conj*, Proof/Run*: the two
  bodies' obligations point by point, then the run over both regions) and read at the word-level instance and at the
  ideal one. At the ideal instance the same run names what the result array ends holding, and that is the specified
  function: the accumulator after the point with contraction block κ is the partial score over the blocks up to κ, the
  sixteen blocks of 256 make the whole score (commutativity and associativity of the sum alone: no finiteness of the
  inputs is used), and the written-back blocks tile the result (Proof/MarkedArray, Proof/ScoreArray,
  Proof/KernelIsSpec). The reference's run, read one operation at a time, is the same function (Proof/RefIsSpec).
  No operation of the kernel was rewritten when it was idealized, so the idealization claim has nothing to state.
-/
import proofs.«100908_j52493090291974_2_alg».proof.Defs
import proofs.«100908_j52493090291974_2_alg».proof.Proof.Gen.Kernel
import proofs.«100908_j52493090291974_2_alg».proof.Proof.Gen.KernelIdeal
import proofs.«100908_j52493090291974_2_alg».proof.Proof.Gen.ReferenceIdeal
import proofs.«100908_j52493090291974_2_alg».proof.Proof.Gen.Pre_finite_inputs
import proofs.«100908_j52493090291974_2_alg».proof.Proof.RunBits
import proofs.«100908_j52493090291974_2_alg».proof.Proof.KernelIsSpec
import proofs.«100908_j52493090291974_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed: its run at the word-level instance, the result's contents dropped. -/
theorem frame_kernel : Cert.frame_Kernel := fun m ρ _ =>
  (θ_run (Cert.Kernel.defs (F := Bits)) _ _).mono (fun _ h c => (h c).2) (Cert.Kernel.Hand.run_main (F := Bits) m ρ)

/-- The idealized kernel: the same run at the ideal instance. -/
theorem frame_kernelIdeal : Cert.frame_KernelIdeal := fun m ρ _ =>
  (θ_run (Cert.KernelIdeal.defs (F := Ideal)) _ _).mono (fun _ h c => (h c).2) (Cert.KernelIdeal.Hand.run_main (F := Ideal) m ρ)

/-- The reference: its run, the result dropped. -/
theorem frame_reference : Cert.frame_ReferenceIdeal := fun m ρ _ =>
  (θ_run (Cert.ReferenceIdeal.defs (F := Ideal)) _ _).mono (fun _ h c => (h c).2) (Cert.ReferenceIdeal.Value.run (F := Ideal) m ρ)

/-- Nothing was rewritten by the idealization. -/
theorem preserves : Cert.preserves_Kernel_KernelIdeal := trivial

/-- Both runs end with the result at the specified function of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelValue.kernel_run m ρ, ?_⟩
  refine (θ_run (Cert.ReferenceIdeal.defs (F := Ideal)) _ _).mono (fun _ h c => ⟨(h c).1.trans ?_, (h c).2⟩)
    (Cert.ReferenceIdeal.Value.run (F := Ideal) m' ρ')
  rw [Cert.ReferenceIdeal.Read.val_main_v8_eq, Cert.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
